-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S3072x1 : Shape := ⟨2, ![3072, 1]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S1x512 : Shape := ⟨2, ![1, 512]⟩
abbrev S512x512 : Shape := ⟨2, ![512, 512]⟩
abbrev S2x2048x3072 : Shape := ⟨3, ![2, 2048, 3072]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x256x64 : Shape := ⟨3, ![1, 256, 64]⟩
abbrev S1x1024 : Shape := ⟨2, ![1, 1024]⟩

abbrev nBuf : Space → Nat
  | .hbm => 29
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072, .i32⟩
  | .hbm, ⟨6, _⟩ => ⟨S3072, .i1⟩
  | .hbm, ⟨7, _⟩ => ⟨S3072, .i1⟩
  | .hbm, ⟨8, _⟩ => ⟨S_, .i32⟩
  | .hbm, ⟨9, _⟩ => ⟨S3072, .i32⟩
  | .hbm, ⟨10, _⟩ => ⟨S3072, .i32⟩
  | .hbm, ⟨11, _⟩ => ⟨S3072, .i32⟩
  | .hbm, ⟨12, _⟩ => ⟨S3072x1, .i32⟩
  | .hbm, ⟨13, _⟩ => ⟨S3072x1024, .f32⟩
  | .hbm, ⟨14, _⟩ => ⟨S_, .i32⟩
  | .hbm, ⟨15, _⟩ => ⟨S3072, .i32⟩
  | .hbm, ⟨16, _⟩ => ⟨S3072, .i32⟩
  | .hbm, ⟨17, _⟩ => ⟨S3072, .i32⟩
  | .hbm, ⟨18, _⟩ => ⟨S3072x1, .i32⟩
  | .hbm, ⟨19, _⟩ => ⟨S3072, .f32⟩
  | .hbm, ⟨20, _⟩ => ⟨S4096x1024, .f32⟩
  | .hbm, ⟨21, _⟩ => ⟨S1x3072, .f32⟩
  | .hbm, ⟨22, _⟩ => ⟨S4096x3072, .bf16⟩
  | .hbm, ⟨23, _⟩ => ⟨S2x2048x3072, .bf16⟩
  | .hbm, ⟨24, _⟩ => ⟨S2x2048x1024, .bf16⟩
  | .hbm, ⟨25, _⟩ => ⟨S4096x1024, .bf16⟩
  | .hbm, ⟨26, _⟩ => ⟨S1x1024, .f32⟩
  | .hbm, ⟨27, _⟩ => ⟨S4096x1024, .f32⟩
  | .hbm, ⟨28, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x256x128, .bf16⟩
  | .local _ .vmem, ⟨15, _⟩ => ⟨S1x256x128, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x512, .f32⟩
  | .local _ .vmem, ⟨21, _⟩ => ⟨S1x512, .f32⟩
  | .local _ .vmem, ⟨22, _⟩ => ⟨S512x512, .f32⟩
  | .local _ .vmem, ⟨23, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  shapeCasts_S2x2048x1024_S4096x1024 : S2x2048x1024.ShapeCasts S4096x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S4096x3072_S2x2048x3072 : S4096x3072.ShapeCasts S2x2048x3072
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  shapeCasts_S1024_S1x1024 : S1024.ShapeCasts S1x1024
  shapeCasts_S4096x1024_S2x2048x1024 : S4096x1024.ShapeCasts S2x2048x1024
  gather_S3072x1024_S3072x1_S3072x1024_1_0_n_n_0_1_11024_wf : GatherDims.WF S3072x1024 S3072x1 S3072x1024 [1] [0] [] [0] [] 1 ![1, 1024]
  gather_S3072_S3072x1_S3072_n_0_n_n_0_1_1_wf : GatherDims.WF S3072 S3072x1 S3072 [] [0] [] [0] [] 1 ![1]
  dot_S512x1024_S512x1024_S512x512_1_1_0_0_n_n_wf : DotDims.WF S512x1024 S512x1024 S512x512 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x1024.size a
  hwx0_1 : ∀ i : grid0.Coords, EltTy.bits .f32 = 32 ∨ (Rect.block (s := S3072x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x3072.size a
  hwx0_2 : ∀ i : grid0.Coords, EltTy.bits .f32 = 32 ∨ (Rect.block (s := S1x3072) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x3072.size a
  hwx0_3 : ∀ i : grid0.Coords, EltTy.bits .bf16 = 32 ∨ (Rect.block (s := S4096x3072) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S2x2048x3072.size a
  hwx1_0 : ∀ i : grid1.Coords, EltTy.bits .bf16 = 32 ∨ (Rect.block (s := S2x2048x3072) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x1024.size a
  hwx1_3 : ∀ i : grid1.Coords, EltTy.bits .bf16 = 32 ∨ (Rect.block (s := S2x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S1024x1024.size a
  hwx2_1 : ∀ i : grid2.Coords, EltTy.bits .f32 = 32 ∨ (Rect.block (s := S1024x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x1024.size a
  hwx2_3 : ∀ i : grid2.Coords, EltTy.bits .f32 = 32 ∨ (Rect.block (s := S4096x1024) S512x512.size (cc2_transform_3 i) (hinb2_3 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.FrameK0.lean ====
/-
  Region 0: a projection (rows of the input against the permuted fused weight, plus the bias row) computed block by block:
  at each grid point the body reads a 512×1024 block of the left operand, a 512×1024 block of the right operand and a
  1×512 block of the bias, and overwrites a 512×512 block of the result. What is proved here, at any float instance:
  the body runs at every point, leaves its three input blocks as they were and leaves the result block at the one
  payload of the three blocks; the windows' blocks are read off the arrays as the region finds them.
-/
import proofs.«169975_j65893388255704_2_alg».proof.Proof.Gen.Kernel.Launch
import proofs.«169975_j65893388255704_2_alg».proof.Proof.Gen.Kernel.Skeleton
import proofs.«169975_j65893388255704_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each staging buffer: every load and the one store go through these. -/
abbrev rA0 : Rect S512x1024 := Rect.unit (s := S512x1024) ![0, 0] S512x1024.size inb_S512x1024_S512x1024_0_0
abbrev rB0 : Rect S1x512 := Rect.unit (s := S1x512) ![0, 0] S1x512.size inb_S1x512_S1x512_0_0
abbrev rO0 : Rect S512x512 := Rect.unit (s := S512x512) ![0, 0] S512x512.size inb_S512x512_S512x512_0_0

/-- The result window's staging buffer after the body, from the input windows' blocks: its one store. -/
def out0_3 (x0 : Vec F S512x1024 .f32) (x1 : Vec F S512x1024 .f32) (x2 : Vec F S1x512 .f32) : Vec F S512x512 .bf16 :=
  View.canon [⟨rO0, k0_pay1 (View.ld x0 rA0) (View.ld x1 rA0) (View.ld x2 rB0)⟩]

/-- The one store covers the buffer. -/
theorem cover0_3 (p0 : Vec F S512x512 .bf16) (y : S512x512.Idx) :
    ∃ pc ∈ ([⟨rO0, p0⟩] : List (View.Piece (Elt F) S512x512 .bf16)), y ∈ pc.1.set :=
  View.cover_of_tiled [⟨rO0, p0⟩] S512x512.size (by rfl) y

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg2 : Memref sig .tc .vmem S512x1024 .f32) (harg2 : arg2.IsWhole) (arg3 : Memref sig .tc .vmem S512x1024 .f32) (harg3 : arg3.IsWhole)
    (arg4 : Memref sig .tc .vmem S1x512 .f32) (harg4 : arg4.IsWhole) (arg5 : Memref sig .tc .vmem S512x512 .bf16) (harg5 : arg5.IsWhole)
    (x0 : Vec F S512x1024 .f32) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the region's pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameK1.lean ====
/-
  Region 1: scaled dot-product attention for a pair of heads laid side by side in 128 lanes, block by block: at each grid
  point the body reads a 256-row block of queries and the whole 2048-row blocks of keys and of values of one batch entry
  and head pair, and writes the 256×128 block of outputs in two halves of 64 lanes, one head each. What is proved here,
  at any float instance: the body runs at every point, leaves its three input blocks as they were and leaves the result
  block at the two payloads, each over its half; the windows' blocks are read off the arrays as the region finds them.
-/
import proofs.«169975_j65893388255704_2_alg».proof.Proof.Gen.Kernel.Launch
import proofs.«169975_j65893388255704_2_alg».proof.Proof.Gen.Kernel.Skeleton
import proofs.«169975_j65893388255704_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the loads go through, and the two half-width rectangles of the stores. -/
abbrev rQ : Rect S1x256x128 := Rect.unit (s := S1x256x128) ![0, 0, 0] S1x256x128.size inb_S1x256x128_S1x256x128_0_0_0
abbrev rKV : Rect S1x2048x128 := Rect.unit (s := S1x2048x128) ![0, 0, 0] S1x2048x128.size inb_S1x2048x128_S1x2048x128_0_0_0
abbrev rLo : Rect S1x256x128 := Rect.unit (s := S1x256x128) ![0, 0, 0] S1x256x64.size inb_S1x256x128_S1x256x64_0_0_0
abbrev rHi : Rect S1x256x128 := Rect.unit (s := S1x256x128) ![0, 0, 64] S1x256x64.size inb_S1x256x128_S1x256x64_0_0_64

/-- The result window's staging buffer after the body, from the input windows' blocks: its two stores, the later first. -/
def out1_3 (x0 : Vec F S1x256x128 .bf16) (x1 : Vec F S1x2048x128 .bf16) (x2 : Vec F S1x2048x128 .bf16) : Vec F S1x256x128 .bf16 :=
  View.canon [⟨rHi, k1_pay2 (k1_pay7 (View.ld x2 rKV)) (k1_pay8 (View.ld x0 rQ) (View.ld x1 rKV))⟩,
    ⟨rLo, k1_pay1 (k1_pay6 (View.ld x0 rQ) (View.ld x1 rKV) (View.ld x2 rKV))⟩]

/-- The two halves tile the buffer, so they cover it. -/
theorem cover1_3 (p0 : Vec F S1x256x64 .bf16) (p1 : Vec F S1x256x64 .bf16) (y : S1x256x128.Idx) :
    ∃ pc ∈ ([⟨rHi, p0⟩, ⟨rLo, p1⟩] : List (View.Piece (Elt F) S1x256x128 .bf16)), y ∈ pc.1.set :=
  View.cover_of_tiled [⟨rHi, p0⟩, ⟨rLo, p1⟩] S1x256x64.size (by rfl) y

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x128 .bf16) (harg6 : arg6.IsWhole)
    (x0 : Vec F S1x256x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The proof data of the region's pipeline on core `c`: the arrays as the region finds them; after the body at point `t`
    each input's buffer at its block and the output's at `out1_3` of the input blocks; nothing owed. The three input
    windows read ONE array: each holds a share of it, the first a half, the second and third a quarter each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameK1S.lean ====
/-
  Region 1's three input windows read ONE array (the fused projection's output, as queries, keys and values). On entry the
  buffer behind it, held whole, is dealt among the three windows — a half and two quarters of the share — and on exit,
  no write-back having touched it, the three shares are collected into the whole again; the result array is its own buffer.
-/
import proofs.«169975_j65893388255704_2_alg».proof.Proof.FrameK1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The arrays region 1's windows read and write are two buffers. -/
theorem arrs1 : Finset.univ.image (Pipeline.arrRef spec1) = {main_v13, main_v14} := by decide

/-- Each window's share of its array: the three readers of the one array hold a half and two quarters, the writer all. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- Before any write-back an array holds its entry contents. -/
theorem arrAt1_zero (c : Dev nD) (w : Fin cfg1.W) : (dat1 V c).arrAt w 0 = V c (Pipeline.arrRef spec1 w) := rfl

/-- ENTRY: the two buffers behind region 1's arrays, whole at the full share, make the pipeline's arrays at entry. -/
theorem split1 (c : Dev nD) :
    (Pipeline.arrBufs spec1 c (V c) : sProp 𝕄) ⊢ (dat1 V c).arrays ((dat1 V c).arrAt · 0) := by
  unfold Pipeline.arrBufs Pipeline.Dat.arrays
  rw [arrs1, bigSep_insert (by decide), bigSep_singleton, bigSep_W1]
  simp only [View.set_whole, share1_0, share1_1, share1_2, share1_3, arrAt1_zero]
  show (iprop(((c : Thread nD τ).loc main_v13 ↦{fullShare} V c main_v13) ∗ ((c : Thread nD τ).loc main_v14 ↦{fullShare} V c main_v14)) : sProp 𝕄)
    ⊢ iprop(((c : Thread nD τ).loc main_v13 ↦{fullShare.left} V c main_v13) ∗ ((c : Thread nD τ).loc main_v13 ↦{fullShare.right.left} V c main_v13)
        ∗ ((c : Thread nD τ).loc main_v13 ↦{fullShare.right.right} V c main_v13) ∗ ((c : Thread nD τ).loc main_v14 ↦{fullShare} V c main_v14))
  generalize V c main_v13 = f13
  generalize V c main_v14 = f14
  iintro ⟨H13, H14⟩
  ihave H13' := (pointsTo_share (PosShare.mem_left_op_right fullShare)).1 $$ H13
  icases H13' with ⟨Ha, Hb⟩
  ihave Hb' := (pointsTo_share (PosShare.mem_left_op_right fullShare.right)).1 $$ Hb
  icases Hb' with ⟨Hb, Hc⟩
  isplitl [Ha]; · iexact Ha
  isplitl [Hb]; · iexact Hb
  isplitl [Hc]; · iexact Hc
  iexact H14

/-- EXIT: the pipeline's arrays at what it leaves are the two buffers whole at any contents `V'` that has the shared array as
    entered and the result array at what the write-backs leave. -/
theorem join1 (c : Dev nD) (V' : (b : Ref sig .tc) → Buf (Elt F) ((c : Thread nD τ).loc b)) (h13 : V' main_v13 = V c main_v13)
    (h14 : V' main_v14 = (dat1 V c).arrAt 3 cfg1.N) :
    (dat1 V c).arrays ((dat1 V c).arrAt · cfg1.N) ⊢ (Pipeline.arrBufs spec1 c V' : sProp 𝕄) := by
  unfold Pipeline.arrBufs Pipeline.Dat.arrays
  rw [arrs1, bigSep_insert (by decide), bigSep_singleton, bigSep_W1]
  simp only [View.set_whole, share1_0, share1_1, share1_2, share1_3]
  rw [(dat1 V c).arrAt_in 0 rfl, (dat1 V c).arrAt_in 1 rfl, (dat1 V c).arrAt_in 2 rfl, A_eq1, A_eq1, A_eq1, h13, h14]
  show (iprop(((c : Thread nD τ).loc main_v13 ↦{fullShare.left} V c main_v13) ∗ ((c : Thread nD τ).loc main_v13 ↦{fullShare.right.left} V c main_v13)
        ∗ ((c : Thread nD τ).loc main_v13 ↦{fullShare.right.right} V c main_v13) ∗ ((c : Thread nD τ).loc main_v14 ↦{fullShare} (dat1 V c).arrAt 3 cfg1.N)) : sProp 𝕄)
    ⊢ iprop(((c : Thread nD τ).loc main_v13 ↦{fullShare} V c main_v13) ∗ ((c : Thread nD τ).loc main_v14 ↦{fullShare} (dat1 V c).arrAt 3 cfg1.N))
  generalize V c main_v13 = f13
  generalize (dat1 V c).arrAt 3 cfg1.N = f14
  iintro ⟨Ha, Hb, Hc, H14⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  iexact H14

end Cert.Kernel.Fr

end
-- ==== Proof.FrameK2.lean ====
/-
  Region 2: a projection (rows of the attention output against the output weight, plus the bias row) computed block by block:
  at each grid point the body reads a 512×1024 block of the left operand, a 512×1024 block of the right operand and a
  1×512 block of the bias, and overwrites a 512×512 block of the result. What is proved here, at any float instance:
  the body runs at every point, leaves its three input blocks as they were and leaves the result block at the one
  payload of the three blocks; the windows' blocks are read off the arrays as the region finds them.
-/
import proofs.«169975_j65893388255704_2_alg».proof.Proof.Gen.Kernel.Launch
import proofs.«169975_j65893388255704_2_alg».proof.Proof.Gen.Kernel.Skeleton
import proofs.«169975_j65893388255704_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each staging buffer: every load and the one store go through these. -/
abbrev rA2 : Rect S512x1024 := Rect.unit (s := S512x1024) ![0, 0] S512x1024.size inb_S512x1024_S512x1024_0_0
abbrev rB2 : Rect S1x512 := Rect.unit (s := S1x512) ![0, 0] S1x512.size inb_S1x512_S1x512_0_0
abbrev rO2 : Rect S512x512 := Rect.unit (s := S512x512) ![0, 0] S512x512.size inb_S512x512_S512x512_0_0

/-- The result window's staging buffer after the body, from the input windows' blocks: its one store. -/
def out2_3 (x0 : Vec F S512x1024 .bf16) (x1 : Vec F S512x1024 .f32) (x2 : Vec F S1x512 .f32) : Vec F S512x512 .f32 :=
  View.canon [⟨rO2, k2_pay1 (View.ld x0 rA2) (View.ld x1 rA2) (View.ld x2 rB2)⟩]

/-- The one store covers the buffer. -/
theorem cover2_3 (p0 : Vec F S512x512 .f32) (y : S512x512.Idx) :
    ∃ pc ∈ ([⟨rO2, p0⟩] : List (View.Piece (Elt F) S512x512 .f32)), y ∈ pc.1.set :=
  View.cover_of_tiled [⟨rO2, p0⟩] S512x512.size (by rfl) y

set_option maxHeartbeats 1000000 in
/-- The body on whole staging memrefs, the inputs' at contents `x0 x1 x2` and the output's at anything, runs to the
    continuation holding the inputs' as they were and the output's at `out2_3` of them. -/
theorem sound_kernel2 (c : Dev nD) (E : Set ℕ) (i : grid2.Coords) (arg2 : Memref sig .tc .vmem S512x1024 .bf16) (harg2 : arg2.IsWhole) (arg3 : Memref sig .tc .vmem S512x1024 .f32) (harg3 : arg3.IsWhole)
    (arg4 : Memref sig .tc .vmem S1x512 .f32) (harg4 : arg4.IsWhole) (arg5 : Memref sig .tc .vmem S512x512 .f32) (harg5 : arg5.IsWhole)
    (x0 : Vec F S512x1024 .bf16) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region's pipeline on core `c`: the arrays as the region finds them; after the body at point `t`
    each input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrameKRun.lean ====
/-
  The whole run: @main is four stretches of host operations around three kernel regions. The contents of every
  unscoped buffer are followed from the launch memory through each stretch (the host operations' composed effect) and
  each region (its result array at what the pipeline's write-backs leave, everything else as entered), the three
  regions' records are assembled over that thread state, and the launch theorem for a sequence of segments gives: every
  weakly fair execution terminates, nothing faulting, with the result buffer at the last boundary's contents and
  every argument array as launched.
-/
import proofs.«169975_j65893388255704_2_alg».proof.Proof.FrameK0
import proofs.«169975_j65893388255704_2_alg».proof.Proof.FrameK1S
import proofs.«169975_j65893388255704_2_alg».proof.Proof.FrameK2
import proofs.«169975_j65893388255704_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its result array at what the pipeline leaves, every other buffer as entered (its three input
    windows read one array, which no write-back touches). -/
def W4 (c : Dev nD) : Valuation τ sig (Elt F) :=
  Function.update (W3 m c) (Proc.devRef .tc main_v14) ((dat1 (V3 m) c).arrAt 3 cfg1.N)
theorem W4_out (c : Dev nD) : W4 m c (Proc.devRef .tc main_v14) = (dat1 (V3 m) c).arrAt 3 cfg1.N := by
  unfold W4; exact Function.update_self ..
theorem W4_of_ne (c : Dev nD) (b : Ref sig .tc) (hb : b ≠ main_v14) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the last host stretch: what the launch reads at the end. -/
abbrev W7 : Dev nD → Valuation τ sig (Elt F) := fun c => StableHlo.after hostOps3 (W6 m c)

/-! ### The arguments end as launched: no host operation and no region writes one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg3) := (W6_arr m c 1).trans (((dat2 (V5 m) c).arrAt_in 1 rfl _).trans (A_eq2 (V5 m) c 1))
    _ = W4 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_forall_not_mem (b := Proc.devRef .tc main_arg4) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: one array read through three windows -/

/-- ENTRY of region 1 over the thread state: every unscoped buffer at the entry contents is the pipeline's arrays at
    entry beside the unscoped buffers no window of it reads or writes. -/
theorem entry1 (c : Dev nD) : (StableHlo.held (c : Thread nD τ) (Pipeline.ucRefs τ sig) (W3 m c) : sProp 𝕄)
    ⊢ iprop((dat1 (V3 m) c).arrays ((dat1 (V3 m) c).arrAt · 0)
        ∗ Pipeline.unscopedRest (Ix := Unit) (Name := ℕ) (U := UR sig nD τ) (Lvl := ℕ) spec1 c (V3 m c)) := by
  rw [← Pipeline.unscopedBufs_held, Pipeline.unscopedBufs_split₀ cfgs (1 : Fin 3) winFacts₀1.arr_unscoped c]
  exact sep_mono (split1 (V3 m) c) .rfl

/-- EXIT of region 1: the arrays at what the pipeline leaves and the untouched rest are every unscoped buffer at the
    exit contents. -/
theorem exit1 (c : Dev nD) : iprop((dat1 (V3 m) c).arrays ((dat1 (V3 m) c).arrAt · cfg1.N)
        ∗ Pipeline.unscopedRest (Ix := Unit) (Name := ℕ) (U := UR sig nD τ) (Lvl := ℕ) spec1 c (V3 m c))
    ⊢ (StableHlo.held (c : Thread nD τ) (Pipeline.ucRefs τ sig) (W4 m c) : sProp 𝕄) := by
  rw [← Pipeline.unscopedBufs_held, Pipeline.unscopedBufs_split₀ cfgs (1 : Fin 3) winFacts₀1.arr_unscoped c]
  refine sep_mono (join1 (V3 m) c (V4 m c) (W4_of_ne m c main_v13 (by decide)) (W4_out m c)) (Entails.of_eq ?_)
  unfold Pipeline.unscopedRest
  exact bigSep_congr fun b hb => by
    have e : V4 m c b = V3 m c b := W4_of_ne m c b (fun e => (Finset.mem_sdiff.mp hb).2 (by rw [e, arrs1]; decide))
    show (_ ↦{fullShare} V3 m c b) = (_ ↦{fullShare} V4 m c b)
    rw [e]

set_option backward.isDefEq.respectTransparency.types false in
/-- Region 1 over the thread state. Its three input windows read one array, so the layout facts are the ones that do
    not ask the arrays to be distinct, and the array's share is dealt among the windows on entry and collected on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at what the pipeline leaves; the generator
    register goes into the class invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of @main on the
    TensorCores terminates, nothing faulting, and every final state holds every unscoped buffer at the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The result buffer ends at the last boundary's contents, and every argument array as launched. -/
theorem run_main : θ_run defs (onTc (τ := τ) (main (F := F))) ⟨m, fun _ => 0, ρ⟩ (fun r => ∀ c : Dev nD,
      r.2.mem ((c.tc : Thread nD τ).loc main_v18) = W7 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v18 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Fr

end
-- ==== Proof.FrameI0.lean ====
/-
  Region 0: a projection (rows of the input against the permuted fused weight, plus the bias row) computed block by block:
  at each grid point the body reads a 512×1024 block of the left operand, a 512×1024 block of the right operand and a
  1×512 block of the bias, and overwrites a 512×512 block of the result. What is proved here, at any float instance:
  the body runs at every point, leaves its three input blocks as they were and leaves the result block at the one
  payload of the three blocks; the windows' blocks are read off the arrays as the region finds them.
-/
import proofs.«169975_j65893388255704_2_alg».proof.Proof.Gen.KernelIdeal.Launch
import proofs.«169975_j65893388255704_2_alg».proof.Proof.Gen.KernelIdeal.Skeleton
import proofs.«169975_j65893388255704_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each staging buffer: every load and the one store go through these. -/
abbrev rA0 : Rect S512x1024 := Rect.unit (s := S512x1024) ![0, 0] S512x1024.size inb_S512x1024_S512x1024_0_0
abbrev rB0 : Rect S1x512 := Rect.unit (s := S1x512) ![0, 0] S1x512.size inb_S1x512_S1x512_0_0
abbrev rO0 : Rect S512x512 := Rect.unit (s := S512x512) ![0, 0] S512x512.size inb_S512x512_S512x512_0_0

/-- The result window's staging buffer after the body, from the input windows' blocks: its one store. -/
def out0_3 (x0 : Vec F S512x1024 .f32) (x1 : Vec F S512x1024 .f32) (x2 : Vec F S1x512 .f32) : Vec F S512x512 .bf16 :=
  View.canon [⟨rO0, k0_pay1 (View.ld x0 rA0) (View.ld x1 rA0) (View.ld x2 rB0)⟩]

/-- The one store covers the buffer. -/
theorem cover0_3 (p0 : Vec F S512x512 .bf16) (y : S512x512.Idx) :
    ∃ pc ∈ ([⟨rO0, p0⟩] : List (View.Piece (Elt F) S512x512 .bf16)), y ∈ pc.1.set :=
  View.cover_of_tiled [⟨rO0, p0⟩] S512x512.size (by rfl) y

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg2 : Memref sig .tc .vmem S512x1024 .f32) (harg2 : arg2.IsWhole) (arg3 : Memref sig .tc .vmem S512x1024 .f32) (harg3 : arg3.IsWhole)
    (arg4 : Memref sig .tc .vmem S1x512 .f32) (harg4 : arg4.IsWhole) (arg5 : Memref sig .tc .vmem S512x512 .bf16) (harg5 : arg5.IsWhole)
    (x0 : Vec F S512x1024 .f32) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the region's pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameI1.lean ====
/-
  Region 1: scaled dot-product attention for a pair of heads laid side by side in 128 lanes, block by block: at each grid
  point the body reads a 256-row block of queries and the whole 2048-row blocks of keys and of values of one batch entry
  and head pair, and writes the 256×128 block of outputs in two halves of 64 lanes, one head each. What is proved here,
  at any float instance: the body runs at every point, leaves its three input blocks as they were and leaves the result
  block at the two payloads, each over its half; the windows' blocks are read off the arrays as the region finds them.
-/
import proofs.«169975_j65893388255704_2_alg».proof.Proof.Gen.KernelIdeal.Launch
import proofs.«169975_j65893388255704_2_alg».proof.Proof.Gen.KernelIdeal.Skeleton
import proofs.«169975_j65893388255704_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the loads go through, and the two half-width rectangles of the stores. -/
abbrev rQ : Rect S1x256x128 := Rect.unit (s := S1x256x128) ![0, 0, 0] S1x256x128.size inb_S1x256x128_S1x256x128_0_0_0
abbrev rKV : Rect S1x2048x128 := Rect.unit (s := S1x2048x128) ![0, 0, 0] S1x2048x128.size inb_S1x2048x128_S1x2048x128_0_0_0
abbrev rLo : Rect S1x256x128 := Rect.unit (s := S1x256x128) ![0, 0, 0] S1x256x64.size inb_S1x256x128_S1x256x64_0_0_0
abbrev rHi : Rect S1x256x128 := Rect.unit (s := S1x256x128) ![0, 0, 64] S1x256x64.size inb_S1x256x128_S1x256x64_0_0_64

/-- The result window's staging buffer after the body, from the input windows' blocks: its two stores, the later first. -/
def out1_3 (x0 : Vec F S1x256x128 .bf16) (x1 : Vec F S1x2048x128 .bf16) (x2 : Vec F S1x2048x128 .bf16) : Vec F S1x256x128 .bf16 :=
  View.canon [⟨rHi, k1_pay2 (k1_pay7 (View.ld x2 rKV)) (k1_pay8 (View.ld x0 rQ) (View.ld x1 rKV))⟩,
    ⟨rLo, k1_pay1 (k1_pay6 (View.ld x0 rQ) (View.ld x1 rKV) (View.ld x2 rKV))⟩]

/-- The two halves tile the buffer, so they cover it. -/
theorem cover1_3 (p0 : Vec F S1x256x64 .bf16) (p1 : Vec F S1x256x64 .bf16) (y : S1x256x128.Idx) :
    ∃ pc ∈ ([⟨rHi, p0⟩, ⟨rLo, p1⟩] : List (View.Piece (Elt F) S1x256x128 .bf16)), y ∈ pc.1.set :=
  View.cover_of_tiled [⟨rHi, p0⟩, ⟨rLo, p1⟩] S1x256x64.size (by rfl) y

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x128 .bf16) (harg6 : arg6.IsWhole)
    (x0 : Vec F S1x256x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The proof data of the region's pipeline on core `c`: the arrays as the region finds them; after the body at point `t`
    each input's buffer at its block and the output's at `out1_3` of the input blocks; nothing owed. The three input
    windows read ONE array: each holds a share of it, the first a half, the second and third a quarter each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameI1S.lean ====
/-
  Region 1's three input windows read ONE array (the fused projection's output, as queries, keys and values). On entry the
  buffer behind it, held whole, is dealt among the three windows — a half and two quarters of the share — and on exit,
  no write-back having touched it, the three shares are collected into the whole again; the result array is its own buffer.
-/
import proofs.«169975_j65893388255704_2_alg».proof.Proof.FrameI1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The arrays region 1's windows read and write are two buffers. -/
theorem arrs1 : Finset.univ.image (Pipeline.arrRef spec1) = {main_v13, main_v14} := by decide

/-- Each window's share of its array: the three readers of the one array hold a half and two quarters, the writer all. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- Before any write-back an array holds its entry contents. -/
theorem arrAt1_zero (c : Dev nD) (w : Fin cfg1.W) : (dat1 V c).arrAt w 0 = V c (Pipeline.arrRef spec1 w) := rfl

/-- ENTRY: the two buffers behind region 1's arrays, whole at the full share, make the pipeline's arrays at entry. -/
theorem split1 (c : Dev nD) :
    (Pipeline.arrBufs spec1 c (V c) : sProp 𝕄) ⊢ (dat1 V c).arrays ((dat1 V c).arrAt · 0) := by
  unfold Pipeline.arrBufs Pipeline.Dat.arrays
  rw [arrs1, bigSep_insert (by decide), bigSep_singleton, bigSep_W1]
  simp only [View.set_whole, share1_0, share1_1, share1_2, share1_3, arrAt1_zero]
  show (iprop(((c : Thread nD τ).loc main_v13 ↦{fullShare} V c main_v13) ∗ ((c : Thread nD τ).loc main_v14 ↦{fullShare} V c main_v14)) : sProp 𝕄)
    ⊢ iprop(((c : Thread nD τ).loc main_v13 ↦{fullShare.left} V c main_v13) ∗ ((c : Thread nD τ).loc main_v13 ↦{fullShare.right.left} V c main_v13)
        ∗ ((c : Thread nD τ).loc main_v13 ↦{fullShare.right.right} V c main_v13) ∗ ((c : Thread nD τ).loc main_v14 ↦{fullShare} V c main_v14))
  generalize V c main_v13 = f13
  generalize V c main_v14 = f14
  iintro ⟨H13, H14⟩
  ihave H13' := (pointsTo_share (PosShare.mem_left_op_right fullShare)).1 $$ H13
  icases H13' with ⟨Ha, Hb⟩
  ihave Hb' := (pointsTo_share (PosShare.mem_left_op_right fullShare.right)).1 $$ Hb
  icases Hb' with ⟨Hb, Hc⟩
  isplitl [Ha]; · iexact Ha
  isplitl [Hb]; · iexact Hb
  isplitl [Hc]; · iexact Hc
  iexact H14

/-- EXIT: the pipeline's arrays at what it leaves are the two buffers whole at any contents `V'` that has the shared array as
    entered and the result array at what the write-backs leave. -/
theorem join1 (c : Dev nD) (V' : (b : Ref sig .tc) → Buf (Elt F) ((c : Thread nD τ).loc b)) (h13 : V' main_v13 = V c main_v13)
    (h14 : V' main_v14 = (dat1 V c).arrAt 3 cfg1.N) :
    (dat1 V c).arrays ((dat1 V c).arrAt · cfg1.N) ⊢ (Pipeline.arrBufs spec1 c V' : sProp 𝕄) := by
  unfold Pipeline.arrBufs Pipeline.Dat.arrays
  rw [arrs1, bigSep_insert (by decide), bigSep_singleton, bigSep_W1]
  simp only [View.set_whole, share1_0, share1_1, share1_2, share1_3]
  rw [(dat1 V c).arrAt_in 0 rfl, (dat1 V c).arrAt_in 1 rfl, (dat1 V c).arrAt_in 2 rfl, A_eq1, A_eq1, A_eq1, h13, h14]
  show (iprop(((c : Thread nD τ).loc main_v13 ↦{fullShare.left} V c main_v13) ∗ ((c : Thread nD τ).loc main_v13 ↦{fullShare.right.left} V c main_v13)
        ∗ ((c : Thread nD τ).loc main_v13 ↦{fullShare.right.right} V c main_v13) ∗ ((c : Thread nD τ).loc main_v14 ↦{fullShare} (dat1 V c).arrAt 3 cfg1.N)) : sProp 𝕄)
    ⊢ iprop(((c : Thread nD τ).loc main_v13 ↦{fullShare} V c main_v13) ∗ ((c : Thread nD τ).loc main_v14 ↦{fullShare} (dat1 V c).arrAt 3 cfg1.N))
  generalize V c main_v13 = f13
  generalize (dat1 V c).arrAt 3 cfg1.N = f14
  iintro ⟨Ha, Hb, Hc, H14⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  iexact H14

end Cert.KernelIdeal.Fr

end
-- ==== Proof.FrameI2.lean ====
/-
  Region 2: a projection (rows of the attention output against the output weight, plus the bias row) computed block by block:
  at each grid point the body reads a 512×1024 block of the left operand, a 512×1024 block of the right operand and a
  1×512 block of the bias, and overwrites a 512×512 block of the result. What is proved here, at any float instance:
  the body runs at every point, leaves its three input blocks as they were and leaves the result block at the one
  payload of the three blocks; the windows' blocks are read off the arrays as the region finds them.
-/
import proofs.«169975_j65893388255704_2_alg».proof.Proof.Gen.KernelIdeal.Launch
import proofs.«169975_j65893388255704_2_alg».proof.Proof.Gen.KernelIdeal.Skeleton
import proofs.«169975_j65893388255704_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each staging buffer: every load and the one store go through these. -/
abbrev rA2 : Rect S512x1024 := Rect.unit (s := S512x1024) ![0, 0] S512x1024.size inb_S512x1024_S512x1024_0_0
abbrev rB2 : Rect S1x512 := Rect.unit (s := S1x512) ![0, 0] S1x512.size inb_S1x512_S1x512_0_0
abbrev rO2 : Rect S512x512 := Rect.unit (s := S512x512) ![0, 0] S512x512.size inb_S512x512_S512x512_0_0

/-- The result window's staging buffer after the body, from the input windows' blocks: its one store. -/
def out2_3 (x0 : Vec F S512x1024 .bf16) (x1 : Vec F S512x1024 .f32) (x2 : Vec F S1x512 .f32) : Vec F S512x512 .f32 :=
  View.canon [⟨rO2, k2_pay1 (View.ld x0 rA2) (View.ld x1 rA2) (View.ld x2 rB2)⟩]

/-- The one store covers the buffer. -/
theorem cover2_3 (p0 : Vec F S512x512 .f32) (y : S512x512.Idx) :
    ∃ pc ∈ ([⟨rO2, p0⟩] : List (View.Piece (Elt F) S512x512 .f32)), y ∈ pc.1.set :=
  View.cover_of_tiled [⟨rO2, p0⟩] S512x512.size (by rfl) y

set_option maxHeartbeats 1000000 in
/-- The body on whole staging memrefs, the inputs' at contents `x0 x1 x2` and the output's at anything, runs to the
    continuation holding the inputs' as they were and the output's at `out2_3` of them. -/
theorem sound_kernel2 (c : Dev nD) (E : Set ℕ) (i : grid2.Coords) (arg2 : Memref sig .tc .vmem S512x1024 .bf16) (harg2 : arg2.IsWhole) (arg3 : Memref sig .tc .vmem S512x1024 .f32) (harg3 : arg3.IsWhole)
    (arg4 : Memref sig .tc .vmem S1x512 .f32) (harg4 : arg4.IsWhole) (arg5 : Memref sig .tc .vmem S512x512 .f32) (harg5 : arg5.IsWhole)
    (x0 : Vec F S512x1024 .bf16) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region's pipeline on core `c`: the arrays as the region finds them; after the body at point `t`
    each input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameIRun.lean ====
/-
  The whole run: @main is four stretches of host operations around three kernel regions. The contents of every
  unscoped buffer are followed from the launch memory through each stretch (the host operations' composed effect) and
  each region (its result array at what the pipeline's write-backs leave, everything else as entered), the three
  regions' records are assembled over that thread state, and the launch theorem for a sequence of segments gives: every
  weakly fair execution terminates, nothing faulting, with the result buffer at the last boundary's contents and
  every argument array as launched.
-/
import proofs.«169975_j65893388255704_2_alg».proof.Proof.FrameI0
import proofs.«169975_j65893388255704_2_alg».proof.Proof.FrameI1S
import proofs.«169975_j65893388255704_2_alg».proof.Proof.FrameI2
import proofs.«169975_j65893388255704_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its result array at what the pipeline leaves, every other buffer as entered (its three input
    windows read one array, which no write-back touches). -/
def W4 (c : Dev nD) : Valuation τ sig (Elt F) :=
  Function.update (W3 m c) (Proc.devRef .tc main_v14) ((dat1 (V3 m) c).arrAt 3 cfg1.N)
theorem W4_out (c : Dev nD) : W4 m c (Proc.devRef .tc main_v14) = (dat1 (V3 m) c).arrAt 3 cfg1.N := by
  unfold W4; exact Function.update_self ..
theorem W4_of_ne (c : Dev nD) (b : Ref sig .tc) (hb : b ≠ main_v14) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the last host stretch: what the launch reads at the end. -/
abbrev W7 : Dev nD → Valuation τ sig (Elt F) := fun c => StableHlo.after hostOps3 (W6 m c)

/-! ### The arguments end as launched: no host operation and no region writes one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg3) := (W6_arr m c 1).trans (((dat2 (V5 m) c).arrAt_in 1 rfl _).trans (A_eq2 (V5 m) c 1))
    _ = W4 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_forall_not_mem (b := Proc.devRef .tc main_arg4) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: one array read through three windows -/

/-- ENTRY of region 1 over the thread state: every unscoped buffer at the entry contents is the pipeline's arrays at
    entry beside the unscoped buffers no window of it reads or writes. -/
theorem entry1 (c : Dev nD) : (StableHlo.held (c : Thread nD τ) (Pipeline.ucRefs τ sig) (W3 m c) : sProp 𝕄)
    ⊢ iprop((dat1 (V3 m) c).arrays ((dat1 (V3 m) c).arrAt · 0)
        ∗ Pipeline.unscopedRest (Ix := Unit) (Name := ℕ) (U := UR sig nD τ) (Lvl := ℕ) spec1 c (V3 m c)) := by
  rw [← Pipeline.unscopedBufs_held, Pipeline.unscopedBufs_split₀ cfgs (1 : Fin 3) winFacts₀1.arr_unscoped c]
  exact sep_mono (split1 (V3 m) c) .rfl

/-- EXIT of region 1: the arrays at what the pipeline leaves and the untouched rest are every unscoped buffer at the
    exit contents. -/
theorem exit1 (c : Dev nD) : iprop((dat1 (V3 m) c).arrays ((dat1 (V3 m) c).arrAt · cfg1.N)
        ∗ Pipeline.unscopedRest (Ix := Unit) (Name := ℕ) (U := UR sig nD τ) (Lvl := ℕ) spec1 c (V3 m c))
    ⊢ (StableHlo.held (c : Thread nD τ) (Pipeline.ucRefs τ sig) (W4 m c) : sProp 𝕄) := by
  rw [← Pipeline.unscopedBufs_held, Pipeline.unscopedBufs_split₀ cfgs (1 : Fin 3) winFacts₀1.arr_unscoped c]
  refine sep_mono (join1 (V3 m) c (V4 m c) (W4_of_ne m c main_v13 (by decide)) (W4_out m c)) (Entails.of_eq ?_)
  unfold Pipeline.unscopedRest
  exact bigSep_congr fun b hb => by
    have e : V4 m c b = V3 m c b := W4_of_ne m c b (fun e => (Finset.mem_sdiff.mp hb).2 (by rw [e, arrs1]; decide))
    show (_ ↦{fullShare} V3 m c b) = (_ ↦{fullShare} V4 m c b)
    rw [e]

set_option backward.isDefEq.respectTransparency.types false in
/-- Region 1 over the thread state. Its three input windows read one array, so the layout facts are the ones that do
    not ask the arrays to be distinct, and the array's share is dealt among the windows on entry and collected on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at what the pipeline leaves; the generator
    register goes into the class invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of @main on the
    TensorCores terminates, nothing faulting, and every final state holds every unscoped buffer at the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The result buffer ends at the last boundary's contents, and every argument array as launched. -/
theorem run_main : θ_run defs (onTc (τ := τ) (main (F := F))) ⟨m, fun _ => 0, ρ⟩ (fun r => ∀ c : Dev nD,
      r.2.mem ((c.tc : Thread nD τ).loc main_v18) = W7 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v18 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Fr

end
-- ==== Proof.Spec.lean ====
/-
  Multi-head self-attention over a [2, 2048, 1024] input, as one function of the five argument arrays, on the
  extended reals: a fused projection to 3072 channels laid out head by head as (query | key | value) blocks of
  64 channels, sixteen heads of scaled dot-product attention with the softmax taken row by row, and an output
  projection. Every sum is a finite sum over a literal range; the row maximum is the fold of `max` from -∞.
-/
import Idealize.ShloMosaic.PureOps.Ideal
import Idealize.ShloMosaic.Lib.ValueIdx

noncomputable section

open scoped BigOperators

namespace Cert.Attn

open Idealize.ShloMosaic Idealize.ShloMosaic.ValueIdx

/-- The scale of the scores, one eighth (the reciprocal of the square root of the head width 64). -/
def scale : EReal := Ideal.ofBits .f32 0x3E000000#32

/-- The value the row maximum is folded from, -∞. -/
def negInf : EReal := Ideal.ofBits .f32 0xFF800000#32

/-- The scaled score of one query row against key row `j`. -/
def score (q : Fin 64 → EReal) (k : Fin 2048 → Fin 64 → EReal) (j : Fin 2048) : EReal :=
  (∑ d : Fin 64, q d * k j d) * scale

/-- The maximum of a row of scores. -/
def rowMax (s : Fin 2048 → EReal) : EReal := (Finset.univ : Finset (Fin 2048)).fold max negInf s

/-- The softmax weight of entry `j` of a row of scores. -/
def weight (s : Fin 2048 → EReal) (j : Fin 2048) : EReal :=
  Ideal.div (Ideal.exp (s j - rowMax s)) (∑ j' : Fin 2048, Ideal.exp (s j' - rowMax s))

/-- One output channel of one query row of one head: the softmax-weighted sum of that channel of the value rows. -/
def attnRow (q : Fin 64 → EReal) (k : Fin 2048 → Fin 64 → EReal) (v : Fin 2048 → EReal) : EReal :=
  ∑ j : Fin 2048, weight (score q k) j * v j

/-- Lane `d` of the first head of a pair of heads laid side by side in 128 lanes. -/
def lo (d : Fin 64) : Fin 128 := ⟨d.val, by omega⟩
/-- Lane `d` of the second head of the pair. -/
def hi (d : Fin 64) : Fin 128 := ⟨64 + d.val, by omega⟩

/-- A matrix product against a transposed right operand plus a row of biases: entry `(p, q)` of
    `a · wᵀ + bias`, the contraction over `K` coordinates. -/
def affine {K : Nat} (a : Fin K → EReal) (w : Fin K → EReal) (bias : EReal) : EReal := (∑ k : Fin K, a k * w k) + bias

/-- The fused projection: channel `e` of row `(bb, s)`. -/
def qkv (x : (⟨3, ![2, 2048, 1024]⟩ : Shape).Idx → EReal) (w : (⟨2, ![3072, 1024]⟩ : Shape).Idx → EReal)
    (b : (⟨1, ![3072]⟩ : Shape).Idx → EReal) (bb : Fin 2) (s : Fin 2048) (e : Fin 3072) : EReal :=
  (∑ d : Fin 1024, x (ix3 bb s d) * w (ix2 e d)) + b (ix1 e)

/-- Channel `d` of part `p` (0 query, 1 key, 2 value) of head `h` among the 3072 projected channels. -/
def col (h : Fin 16) (p : Fin 3) (d : Fin 64) : Fin 3072 := ⟨h.val * 192 + p.val * 64 + d.val, by omega⟩

/-- The same channel in the layout grouped by part: all queries, then all keys, then all values, each head by head. -/
def pcol (p : Fin 3) (h : Fin 16) (d : Fin 64) : Fin 3072 := ⟨p.val * 1024 + h.val * 64 + d.val, by omega⟩

/-- Which projected channel sits at position `n` of the layout grouped by part. -/
def perm (n : Fin 3072) : Fin 3072 :=
  col ⟨n.val % 1024 / 64, by omega⟩ ⟨n.val / 1024, by omega⟩ ⟨n.val % 64, Nat.mod_lt _ (by norm_num)⟩

theorem perm_pcol (p : Fin 3) (h : Fin 16) (d : Fin 64) : perm (pcol p h d) = col h p d := by
  apply Fin.ext
  simp only [perm, pcol, col]
  have := p.isLt; have := h.isLt; have := d.isLt
  omega

/-- Head `h`'s attention output at query row `i`, channel `d`, of batch entry `bb`. -/
def head (x : (⟨3, ![2, 2048, 1024]⟩ : Shape).Idx → EReal) (w : (⟨2, ![3072, 1024]⟩ : Shape).Idx → EReal)
    (b : (⟨1, ![3072]⟩ : Shape).Idx → EReal) (bb : Fin 2) (h : Fin 16) (i : Fin 2048) (d : Fin 64) : EReal :=
  attnRow (fun d' => qkv x w b bb i (col h 0 d')) (fun j d' => qkv x w b bb j (col h 1 d'))
    (fun j => qkv x w b bb j (col h 2 d))

/-- The heads' outputs side by side: channel `c` is channel `c % 64` of head `c / 64`. -/
def vals (x : (⟨3, ![2, 2048, 1024]⟩ : Shape).Idx → EReal) (w : (⟨2, ![3072, 1024]⟩ : Shape).Idx → EReal)
    (b : (⟨1, ![3072]⟩ : Shape).Idx → EReal) (bb : Fin 2) (s : Fin 2048) (c : Fin 1024) : EReal :=
  head x w b bb ⟨c.val / 64, by omega⟩ s ⟨c.val % 64, Nat.mod_lt _ (by norm_num)⟩

/-- The output projection. -/
def out (x : (⟨3, ![2, 2048, 1024]⟩ : Shape).Idx → EReal) (w : (⟨2, ![3072, 1024]⟩ : Shape).Idx → EReal)
    (b : (⟨1, ![3072]⟩ : Shape).Idx → EReal) (ow : (⟨2, ![1024, 1024]⟩ : Shape).Idx → EReal)
    (ob : (⟨1, ![1024]⟩ : Shape).Idx → EReal) (bb : Fin 2) (s : Fin 2048) (e : Fin 1024) : EReal :=
  (∑ c : Fin 1024, vals x w b bb s c * ow (ix2 e c)) + ob (ix1 e)

/-- The whole result array. -/
def G (x : (⟨3, ![2, 2048, 1024]⟩ : Shape).Idx → EReal) (w : (⟨2, ![3072, 1024]⟩ : Shape).Idx → EReal)
    (b : (⟨1, ![3072]⟩ : Shape).Idx → EReal) (ow : (⟨2, ![1024, 1024]⟩ : Shape).Idx → EReal)
    (ob : (⟨1, ![1024]⟩ : Shape).Idx → EReal) : (⟨3, ![2, 2048, 1024]⟩ : Shape).Idx → EReal :=
  fun i => out x w b ow ob (i 0) (i 1) (i 2)

theorem G_apply (x : (⟨3, ![2, 2048, 1024]⟩ : Shape).Idx → EReal) (w : (⟨2, ![3072, 1024]⟩ : Shape).Idx → EReal)
    (b : (⟨1, ![3072]⟩ : Shape).Idx → EReal) (ow : (⟨2, ![1024, 1024]⟩ : Shape).Idx → EReal)
    (ob : (⟨1, ![1024]⟩ : Shape).Idx → EReal) (bb : Fin 2) (s : Fin 2048) (e : Fin 1024) :
    G x w b ow ob (ix3 bb s e) = out x w b ow ob bb s e := rfl

end Cert.Attn

end
-- ==== Proof.LibMatT.lean ====
/-
  A matrix product with BOTH operands contracted on their second axis (x · wᵀ), read at an entry, at the exact
  instance: for the dimension numbers "contract the left operand's second axis with the right operand's second
  axis", entry (p, q) of the product of an M×K by an N×K array into a zero accumulator is ∑ₖ x (p, k) · w (q, k);
  the host's product of the same operands is the same sum.
-/
import Idealize.ShloMosaic.Lib.ValueIdx
import Idealize.ShloMosaic.PureOps.Ideal.Laws

noncomputable section

namespace Cert.LibMatT

open Idealize.ShloMosaic Idealize.ShloMosaic.ValueIdx

variable {M K N : ℕ} {φ₁ φ₂ : FTy}

/-- The left operand's index at output (p, q) and contraction coordinate k is (p, k). -/
theorem transposedRhs_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p q) _).trans hk

/-- The right operand's index at output (p, q) and contraction coordinate k is (q, k). -/
theorem transposedRhs_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p q) _).trans hk

/-- A kernel's product x · wᵀ into the zero accumulator, at (p, q). -/
theorem transposedRhs_matmul_apply (prec : Option ContractPrecision) (x : FVec Ideal ⟨2, ![M, K]⟩ φ₁) (w : FVec Ideal ⟨2, ![N, K]⟩ φ₂)
    (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

/-- The host's product x · wᵀ of the same operands, at (p, q). -/
theorem transposedRhs_dotGeneral_apply (prec : Option ContractPrecision) (sched : HostSchedule) (x : FVec Ideal ⟨2, ![M, K]⟩ φ₁)
    (w : FVec Ideal ⟨2, ![N, K]⟩ φ₂) (p : Fin M) (q : Fin N) :
    FloatOps.dotGeneral (DotDims.transposedRhs M K N) prec sched x w (ix2 p q) = ∑ k : Fin K, x (ix2 p k) * w (ix2 q k) := by
  rw [Ideal.dotGeneral_apply, ← Equiv.sum_comp (contrEquiv1 (DotDims.transposedRhs M K N) K rfl rfl).symm]
  refine Finset.sum_congr rfl fun k _ => ?_
  rw [transposedRhs_lhsIdx, transposedRhs_rhsIdx]

end Cert.LibMatT

end
-- ==== Proof.PayProj.lean ====
/-
  The two projection bodies read at an entry, on the extended reals. Each multiplies a 512×1024 block of rows by the
  transpose of a 512×1024 block of weights, accumulating from zero, and adds one row of 512 biases to every row of
  the product: entry (p, q) is ∑ₖ a (p, k) · w (q, k) + bias q. The roundings to the narrower format are the identity
  on the extended reals, and a cast of an array to its own shape changes nothing.
-/
import proofs.«169975_j65893388255704_2_alg».proof.Proof.Spec
import proofs.«169975_j65893388255704_2_alg».proof.Proof.Gen.KernelIdeal.Skeleton
import proofs.«169975_j65893388255704_2_alg».proof.Proof.LibMatT
import Idealize.ShloMosaic.Lib.ValueLayout
import Idealize.ShloMosaic.Lib.Pipeline.Value

noncomputable section

open scoped BigOperators

namespace Cert.KernelIdeal.PayValue

open Cert.KernelIdeal Cert.KernelIdeal.Gen Idealize.ShloMosaic Idealize.ShloMosaic.ValueIdx

/-- The projections' dimension numbers contract the second axis of both operands. -/
theorem dot_proj_eq : dot_S512x1024_S512x1024_S512x512_1_1_0_0_n_n = DotDims.transposedRhs 512 1024 512 := rfl

/-- The product of a 512×1024 array with the transpose of another, accumulated from zero, at (p, q). -/
theorem proj_matmul_apply {φ₁ φ₂ : FTy} (a : FVec Ideal S512x1024 φ₁) (w : FVec Ideal S512x1024 φ₂) (p q : Fin 512) :
    FloatOps.matmul dot_S512x1024_S512x1024_S512x512_1_1_0_0_n_n none a w (constant S512x512 .f32 0x00000000#32) (ix2 p q)
      = ∑ k : Fin 1024, a (ix2 p k) * w (ix2 q k) :=
  Cert.LibMatT.transposedRhs_matmul_apply (M := 512) (K := 1024) (N := 512) none a w p q

/-- The first projection's body at (p, q). -/
theorem k0_pay1_apply (x0 : Vec Ideal S512x1024 .f32) (w0 : Vec Ideal S512x1024 .f32) (b0 : Vec Ideal S1x512 .f32) (p q : Fin 512) :
    k0_pay1 (F := Ideal) x0 w0 b0 (ix2 p q)
      = Cert.Attn.affine (fun k : Fin 1024 => x0 (ix2 p k)) (fun k : Fin 1024 => w0 (ix2 q k)) (b0 (ix2 (0 : Fin 1) q)) := by
  unfold k0_pay1
  rw [truncf_apply, addf_apply, broadcastTo_1b_ab_apply, shapeCast_self, shapeCast_self, shapeCast_self]
  refine congrArg (· + b0 (ix2 (0 : Fin 1) q)) ?_
  exact proj_matmul_apply _ _ p q

/-- The output projection's body at (p, q). -/
theorem k2_pay1_apply (a0 : Vec Ideal S512x1024 .bf16) (w0 : Vec Ideal S512x1024 .f32) (b0 : Vec Ideal S1x512 .f32) (p q : Fin 512) :
    k2_pay1 (F := Ideal) a0 w0 b0 (ix2 p q)
      = Cert.Attn.affine (fun k : Fin 1024 => a0 (ix2 p k)) (fun k : Fin 1024 => w0 (ix2 q k)) (b0 (ix2 (0 : Fin 1) q)) := by
  unfold k2_pay1
  rw [addf_apply, broadcastTo_1b_ab_apply, shapeCast_self, shapeCast_self]
  refine congrArg (· + b0 (ix2 (0 : Fin 1) q)) ?_
  exact proj_matmul_apply _ _ p q

end Cert.KernelIdeal.PayValue

end
-- ==== Proof.ValueReg0.lean ====
/-
  Region 0, from blocks to the whole array: the 4096×3072 result of the first projection as one function of the three
  arrays the region reads. Each grid point writes one 512×512 block of it; the blocks tile the array.
-/
import proofs.«169975_j65893388255704_2_alg».proof.Proof.FrameI0
import proofs.«169975_j65893388255704_2_alg».proof.Proof.PayProj
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The zero offsets of a whole rectangle. -/
theorem zeros2_0 : (![0, 0] : Fin 2 → Nat) = fun _ => 0 := funext fun a => by fin_cases a <;> rfl

/-- Entry `(r, n)` of the product of the rows against the transposed weight rows, plus the bias of column `n`. -/
def projAt0 (X : S4096x1024.Idx → EReal) (W : S3072x1024.Idx → EReal) (B : S1x3072.Idx → EReal) (r : Fin 4096) (n : Fin 3072) : EReal :=
  Cert.Attn.affine (fun k : Fin 1024 => X (ix2 r k)) (fun k : Fin 1024 => W (ix2 n k)) (B (ix2 (0 : Fin 1) n))

/-- The whole 4096×3072 result as one function of the three arrays. -/
def projArr0 (X : S4096x1024.Idx → EReal) (W : S3072x1024.Idx → EReal) (B : S1x3072.Idx → EReal) : S4096x3072.Idx → EReal :=
  fun i => projAt0 X W B (i 0) (i 1)

/-- The printed index maps over the grid: the left operand's row block and the result's row block are the same and its
    column block is 0; the right operand's row block and the bias's column block are the result's column block. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 5 :=
  (by decide +kernel : ∀ t : Fin grid0.N, _)

/-- Every block of the result is some point's. -/
theorem idx_onto0 : ∀ (q0 : Fin 8) (q1 : Fin 6), ∃ t : Fin cfg0.N, win0_3.index t = ![q0.val, q1.val] :=
  (by decide +kernel : ∀ (q0 : Fin 8) (q1 : Fin 6), ∃ t : Fin grid0.N, win0_3.index t = ![q0.val, q1.val])

/-- The left operand's block at point `t`, at `(p, k)`, is the array at row `index·512 + p`. -/
theorem iblk0_0_apply (c : Dev nD) (t : Fin cfg0.N) (p : Fin 512) (k : Fin 1024) (r : Fin 4096)
    (hr : r.val = win0_3.index t (0 : Fin 2) * 512 + p.val) :
    (iblk0 V c 0 t : Vec Ideal S512x1024 .f32) (ix2 p k) = V c main_v10 (ix2 r k) := by
  obtain ⟨e0, e1, e2, e3, e4, e5, e6, e7⟩ := idx_facts0 t
  unfold iblk0
  rw [View.read_apply]
  show V c main_v10 _ = V c main_v10 _
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- The right operand's block at point `t`, at `(q, k)`, is the array at row `index·512 + q`. -/
theorem iblk0_1_apply (c : Dev nD) (t : Fin cfg0.N) (q : Fin 512) (k : Fin 1024) (n : Fin 3072)
    (hn : n.val = win0_3.index t (1 : Fin 2) * 512 + q.val) :
    (iblk0 V c 1 t : Vec Ideal S512x1024 .f32) (ix2 q k) = V c main_v4 (ix2 n k) := by
  obtain ⟨e0, e1, e2, e3, e4, e5, e6, e7⟩ := idx_facts0 t
  unfold iblk0
  rw [View.read_apply]
  show V c main_v4 _ = V c main_v4 _
  congr 1
  funext a
  apply Fin.ext
  match a with
  | ⟨0, _⟩ => show win0_1.index t (0 : Fin 2) * 512 + 1 * q.val = n.val; omega
  | ⟨1, _⟩ => show win0_1.index t (1 : Fin 2) * 1024 + 1 * k.val = k.val; omega

/-- The bias block at point `t`, at `(0, q)`, is the bias row at column `index·512 + q`. -/
theorem iblk0_2_apply (c : Dev nD) (t : Fin cfg0.N) (q : Fin 512) (n : Fin 3072)
    (hn : n.val = win0_3.index t (1 : Fin 2) * 512 + q.val) :
    (iblk0 V c 2 t : Vec Ideal S1x512 .f32) (ix2 (0 : Fin 1) q) = V c main_v11 (ix2 (0 : Fin 1) n) := by
  obtain ⟨e0, e1, e2, e3, e4, e5, e6, e7⟩ := idx_facts0 t
  unfold iblk0
  rw [View.read_apply]
  show V c main_v11 _ = V c main_v11 _
  congr 1
  funext a
  apply Fin.ext
  match a with
  | ⟨0, _⟩ => show win0_2.index t (0 : Fin 2) * 1 + 1 * 0 = 0; omega
  | ⟨1, _⟩ => show win0_2.index t (1 : Fin 2) * 512 + 1 * q.val = n.val; omega

/-- The body's payload of the three blocks of point `t`, at `(p, q)`, is the whole-array entry the result block's
    rectangle names. -/
theorem blk0_point (c : Dev nD) (t : Fin cfg0.N) (p q : Fin 512) (r : Fin 4096) (n : Fin 3072)
    (hr : r.val = win0_3.index t (0 : Fin 2) * 512 + p.val) (hn : n.val = win0_3.index t (1 : Fin 2) * 512 + q.val) :
    k0_pay1 (F := Ideal) (iblk0 V c 0 t) (iblk0 V c 1 t) (iblk0 V c 2 t) (ix2 p q)
      = projAt0 (V c main_v10) (V c main_v4) (V c main_v11) r n := by
  refine (PayValue.k0_pay1_apply _ _ _ p q).trans ?_
  unfold projAt0
  congr 1
  · funext k; exact iblk0_0_apply V c t p k r hr
  · funext k; exact iblk0_1_apply V c t q k n hn
  · exact iblk0_2_apply V c t q n hn

/-- What point `t` writes back is block `t` of the whole-array function of the arrays as the region finds them. -/
theorem flushed0_eq (c : Dev nD) (t : Fin cfg0.N) :
    (dat0 V c).flushed 3 t = ((cfg0.win 3).blk t).view.read (Elt Ideal) (projArr0 (V c main_v10) (V c main_v4) (V c main_v11)) := by
  show (cfg0.win 3).cut (grid0.coords t) ((dat0 V c).after 3 t) = _
  rw [after0_3]
  unfold out0_3
  rw [View.canon_unit_zero zeros2_0]
  simp only [View.ld_unit_zero (S := S512x1024) zeros2_0, View.ld_unit_zero (S := S1x512) zeros2_0]
  funext j
  obtain ⟨p, q, rfl⟩ : ∃ p q : Fin 512, j = ix2 p q := ⟨j 0, j 1, eq_ix2 (n0 := 512) (n1 := 512) j⟩
  show k0_pay1 (F := Ideal) (iblk0 V c 0 t) (iblk0 V c 1 t) (iblk0 V c 2 t) (ix2 p q)
    = projAt0 (V c main_v10) (V c main_v4) (V c main_v11) (((cfg0.win 3).blk t).view.emb (ix2 p q) 0) (((cfg0.win 3).blk t).view.emb (ix2 p q) 1)
  refine blk0_point V c t p q _ _ ?_ ?_
  · show win0_3.index t (0 : Fin 2) * 512 + 1 * p.val = _; omega
  · show win0_3.index t (1 : Fin 2) * 512 + 1 * q.val = _; omega

/-- An index of the result array is in point `t`'s block iff each coordinate is in the block's range on its axis. -/
theorem mem_blk0 (t : Fin cfg0.N) (i : S4096x3072.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v12).slice (win0_3.rect t)).set ↔ _
  rw [View.set_slice_whole, Rect.mem_set_unit]
  exact Iff.rfl

/-- The blocks tile the array: entry `(r, n)` is in the block of the point with block indices `(r / 512, n / 512)`. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The result array after the region: every entry is the row against the transposed weight row, plus the bias. -/
theorem final0 (c : Dev nD) (r : Fin 4096) (n : Fin 3072) :
    (dat0 V c).arrAt 3 cfg0.N (ix2 r n)
      = Cert.Attn.affine (fun k : Fin 1024 => V c main_v10 (ix2 r k)) (fun k : Fin 1024 => V c main_v4 (ix2 n k)) (V c main_v11 (ix2 (0 : Fin 1) n)) :=
  congrFun ((dat0 V c).arrAt_eq_of_cover 3 (projArr0 (V c main_v10) (V c main_v4) (V c main_v11)) (fun t _ => flushed0_eq V c t) cover0) (ix2 r n)

end Cert.KernelIdeal.Fr

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.PaySoft.lean ====
/-
  The row-wise softmax of a 256×2048 array of scores as the attention body computes it, read at an entry on the
  extended reals: the row's maximum is the fold of max from -∞ over the row, laid back against the row as a column;
  the exponentials of the differences are summed along the row, and each is divided by its row's sum. The rounding
  to the narrower format is the identity on the extended reals.
-/
import proofs.«169975_j65893388255704_2_alg».proof.Proof.Spec
import proofs.«169975_j65893388255704_2_alg».proof.Proof.Gen.KernelIdeal.Skeleton
import proofs.«169975_j65893388255704_2_alg».proof.Proof.LibColBcast
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The index of the 256×2048 array that lies over row `i` with coordinate `k` on the reduced axis is (i, k). -/
theorem lift_row (i : Fin 256) (k : Fin 2048) : reduces_S256x2048_S256.lift (ix1 i) k = ix2 i k := by
  funext c
  apply Fin.ext
  match c with
  | ⟨0, _⟩ => rfl
  | ⟨1, _⟩ => rfl

/-- The maximum along a row, at row `i`: the fold of max from -∞ over the row's entries. -/
theorem rowMax_apply (src : FVec Ideal S256x2048 .f32) (hφ : FKind.Formats .f32)
    (hacc : (0xFF800000#32 : BitVec (FTy.bits .f32)) = FKind.maximumf.neutral .f32 hφ) (i : Fin 256) :
    multiReduction (F := Ideal) .maximumf [1] S256 src 0xFF800000#32 reduces_S256x2048_S256 hφ hacc (ix1 i)
      = Cert.Attn.rowMax (fun j : Fin 2048 => src (ix2 i j)) := by
  refine (Ideal.multiReduction_maximumf_single src _ reduces_S256x2048_S256 hφ hacc (ix1 i)).trans ?_
  show (Finset.univ : Finset (Fin 2048)).fold max Cert.Attn.negInf (src ∘ reduces_S256x2048_S256.lift (ix1 i)) = _
  unfold Cert.Attn.rowMax
  refine congrArg (fun f : Fin 2048 → EReal => (Finset.univ : Finset (Fin 2048)).fold max Cert.Attn.negInf f) (funext fun k => ?_)
  exact congrArg src (lift_row i k)

/-- The sum along a row, at row `i`. -/
theorem rowSum_apply (src : FVec Ideal S256x2048 .f32) (hφ : FKind.Formats .f32)
    (hacc : (0x00000000#32 : BitVec (FTy.bits .f32)) = FKind.add.neutral .f32 hφ) (i : Fin 256) :
    multiReduction (F := Ideal) .add [1] S256 src 0x00000000#32 reduces_S256x2048_S256 hφ hacc (ix1 i)
      = ∑ j : Fin 2048, src (ix2 i j) := by
  refine (Ideal.multiReduction_add_single src _ reduces_S256x2048_S256 hφ hacc (ix1 i)).trans ?_
  show ∑ k : Fin 2048, src (reduces_S256x2048_S256.lift (ix1 i) k) = _
  exact Finset.sum_congr rfl fun k _ => congrArg src (lift_row i k)

/-- A vector of 256 row values reshaped to a column and laid against the 2048 entries of each row reads, at (i, j),
    the value of row `i`. -/
theorem col_apply (v : FVec Ideal S256 .f32) (i : Fin 256) (j : Fin 2048) :
    broadcastTo S256x2048 (shapeCast S256x1 v shapeCasts_S256_S256x1) broadcasts_S256x1_S256x2048 (ix2 i j) = v (ix1 i) := by
  rw [Cert.LibColBcast.broadcastTo_a1_ab_apply, Cert.LibColBcast.shapeCast_a_a1_apply]

/-- The softmax of each row of a 256×2048 array of scores, as the body computes it. -/
def softmaxRows (s : FVec Ideal S256x2048 .f32) : FVec Ideal S256x2048 .bf16 :=
  have m : FVec Ideal S256 .f32 := multiReduction .maximumf [1] S256 s 0xFF800000#32 reduces_S256x2048_S256 (.inl rfl) rfl
  have mc : FVec Ideal S256x2048 .f32 := broadcastTo S256x2048 (shapeCast S256x1 m shapeCasts_S256_S256x1) broadcasts_S256x1_S256x2048
  have e : FVec Ideal S256x2048 .f32 := exp (subf s mc)
  have t : FVec Ideal S256 .f32 := multiReduction .add [1] S256 e 0x00000000#32 reduces_S256x2048_S256 (.inl rfl) rfl
  have tc : FVec Ideal S256x2048 .f32 := broadcastTo S256x2048 (shapeCast S256x1 t shapeCasts_S256_S256x1) broadcasts_S256x1_S256x2048
  truncf .bf16 (divf e tc) bitsLt_bf16_f32

/-- Entry (i, j) of the softmax of the rows is the weight of entry `j` of row `i`. -/
theorem softmaxRows_apply (s : FVec Ideal S256x2048 .f32) (i : Fin 256) (j : Fin 2048) :
    softmaxRows s (ix2 i j) = Cert.Attn.weight (fun j' : Fin 2048 => s (ix2 i j')) j := by
  unfold softmaxRows Cert.Attn.weight
  rw [truncf_apply, divf_apply]
  have hsub : ∀ j' : Fin 2048,
      subf s (broadcastTo S256x2048 (shapeCast S256x1
        (multiReduction (F := Ideal) .maximumf [1] S256 s 0xFF800000#32 reduces_S256x2048_S256 (.inl rfl) rfl)
        shapeCasts_S256_S256x1) broadcasts_S256x1_S256x2048) (ix2 i j')
        = s (ix2 i j') - Cert.Attn.rowMax (fun j'' : Fin 2048 => s (ix2 i j'')) := fun j' => by
    rw [subf_apply, col_apply]
    exact congrArg (fun t : EReal => s (ix2 i j') - t) (rowMax_apply s _ _ i)
  refine congrArg₂ Ideal.div ?_ ?_
  · exact congrArg Ideal.exp (hsub j)
  · rw [col_apply]
    refine (rowSum_apply _ _ _ i).trans ?_
    exact Finset.sum_congr rfl fun j' _ => congrArg Ideal.exp (hsub j')

end Cert.KernelIdeal.PayValue

end
-- ==== Proof.PayAttn.lean ====
/-
  The attention body read at an entry, on the extended reals. One step holds 256 query rows and 2048 key and value
  rows of a pair of heads laid side by side in 128 lanes. For each head of the pair the body cuts the head's 64 lanes
  out of the three blocks, multiplies the queries by the transposed keys and by one eighth, takes the softmax of every
  row of scores, and multiplies the weights by the values: entry (i, d) of a head's result is the softmax-weighted sum
  over the 2048 value rows of lane `d` of that head.
-/
import proofs.«169975_j65893388255704_2_alg».proof.Proof.Spec
import proofs.«169975_j65893388255704_2_alg».proof.Proof.Gen.KernelIdeal.Skeleton
import proofs.«169975_j65893388255704_2_alg».proof.Proof.LibMatT
import proofs.«169975_j65893388255704_2_alg».proof.Proof.LibDense
import proofs.«169975_j65893388255704_2_alg».proof.Proof.PaySoft

noncomputable section

open scoped BigOperators

namespace Cert.KernelIdeal.PayValue

open Cert.KernelIdeal Cert.KernelIdeal.Gen Idealize.ShloMosaic Idealize.ShloMosaic.ValueIdx

/-! ## The scores -/

/-- The scaled scores of 256 query rows against 2048 key rows, as the body computes them. -/
def scores (x : FVec Ideal S256x64 .bf16) (y : FVec Ideal S2048x64 .bf16) : FVec Ideal S256x2048 .f32 :=
  mulf (matmul dot_S256x64_S2048x64_S256x2048_1_1_0_0_n_n none x y (constant S256x2048 .f32 0x00000000#32))
    (broadcast S256x2048 (Scalar.ofBits .f32 0x3E000000#32))

/-- Entry (i, j) of the scores: the product of query row `i` with key row `j`, times one eighth. -/
theorem scores_apply (x : FVec Ideal S256x64 .bf16) (y : FVec Ideal S2048x64 .bf16) (i : Fin 256) (j : Fin 2048) :
    scores x y (ix2 i j) = (∑ d : Fin 64, x (ix2 i d) * y (ix2 j d)) * Cert.Attn.scale := by
  unfold scores
  rw [mulf_apply, broadcast_apply]
  show _ * Cert.Attn.scale = _
  exact congrArg (fun t : EReal => t * Cert.Attn.scale)
    (Cert.LibMatT.transposedRhs_matmul_apply (M := 256) (K := 64) (N := 2048) none x y i j)

/-! ## One head -/

/-- The weights times the values, at (i, d): the softmax-weighted sum of lane `d` of the value rows. -/
theorem head_apply (x : FVec Ideal S256x64 .bf16) (y z : FVec Ideal S2048x64 .bf16) (i : Fin 256) (d : Fin 64) :
    FloatOps.matmul dot_S256x2048_S2048x64_S256x64_1_0_0_1_n_n none (softmaxRows (scores x y)) z
        (constant S256x64 .f32 0x00000000#32) (ix2 i d)
      = Cert.Attn.attnRow (fun d' : Fin 64 => x (ix2 i d')) (fun (j : Fin 2048) (d' : Fin 64) => y (ix2 j d'))
          (fun j : Fin 2048 => z (ix2 j d)) := by
  refine (Cert.LibDense.plain_matmul_apply (M := 256) (K := 2048) (N := 64) none (softmaxRows (scores x y)) z i d).trans ?_
  unfold Cert.Attn.attnRow
  refine Finset.sum_congr rfl fun j _ => ?_
  refine congrArg (fun t : EReal => t * z (ix2 j d)) ?_
  rw [softmaxRows_apply]
  refine congrArg (fun s : Fin 2048 → EReal => Cert.Attn.weight s j) (funext fun j' => ?_)
  exact scores_apply x y i j'

/-! ## The lanes of the two heads -/

/-- The first 64 of 128 lanes: entry (a, d) of the cut is entry (a, d) of the source. -/
theorem slice_lo_apply {n : ℕ} (X : FVec Ideal ⟨2, ![n, 128]⟩ .bf16) (h : (⟨2, ![n, 128]⟩ : Shape).Slices ![0, 0] ⟨2, ![n, 64]⟩)
    (a : Fin n) (d : Fin 64) : extractStridedSlice ⟨2, ![n, 64]⟩ ![0, 0] X h (ix2 a d) = X (ix2 a (Cert.Attn.lo d)) :=
  slice2_axis1_apply 0 X h a d (Cert.Attn.lo d) (Nat.zero_add _).symm

/-- The last 64 of 128 lanes: entry (a, d) of the cut is entry (a, 64 + d) of the source. -/
theorem slice_hi_apply {n : ℕ} (X : FVec Ideal ⟨2, ![n, 128]⟩ .bf16) (h : (⟨2, ![n, 128]⟩ : Shape).Slices ![0, 64] ⟨2, ![n, 64]⟩)
    (a : Fin n) (d : Fin 64) : extractStridedSlice ⟨2, ![n, 64]⟩ ![0, 64] X h (ix2 a d) = X (ix2 a (Cert.Attn.hi d)) :=
  slice2_axis1_apply 64 X h a d (Cert.Attn.hi d) rfl

/-- The query block without its leading unit axis. -/
theorem k1_pay3_apply (v0 : Vec Ideal S1x256x128 .bf16) (i : Fin 256) (c : Fin 128) :
    k1_pay3 (F := Ideal) v0 (ix2 i c) = v0 (ix3 (0 : Fin 1) i c) := by
  unfold k1_pay3
  exact shapeCast_1ab_ab_apply v0 _ i c

/-- The key block without its leading unit axis. -/
theorem k1_pay4_apply (v2 : Vec Ideal S1x2048x128 .bf16) (j : Fin 2048) (c : Fin 128) :
    k1_pay4 (F := Ideal) v2 (ix2 j c) = v2 (ix3 (0 : Fin 1) j c) := by
  unfold k1_pay4
  exact shapeCast_1ab_ab_apply v2 _ j c

/-- The value block without its leading unit axis. -/
theorem k1_pay5_apply (v4 : Vec Ideal S1x2048x128 .bf16) (j : Fin 2048) (c : Fin 128) :
    k1_pay5 (F := Ideal) v4 (ix2 j c) = v4 (ix3 (0 : Fin 1) j c) := by
  unfold k1_pay5
  exact shapeCast_1ab_ab_apply v4 _ j c

/-! ## The two heads of the pair -/

/-- The first head's product is the weights of the first 64 lanes times the first 64 lanes of the values. -/
theorem k1_pay6_eq (v0 : Vec Ideal S1x256x128 .bf16) (v2 v4 : Vec Ideal S1x2048x128 .bf16) :
    k1_pay6 (F := Ideal) v0 v2 v4
      = matmul dot_S256x2048_S2048x64_S256x64_1_0_0_1_n_n none
          (softmaxRows (scores (extractStridedSlice S256x64 ![0, 0] (k1_pay3 v0) slices_S256x128_o0_0_S256x64)
            (extractStridedSlice S2048x64 ![0, 0] (k1_pay4 v2) slices_S2048x128_o0_0_S2048x64)))
          (extractStridedSlice S2048x64 ![0, 0] (k1_pay5 v4) slices_S2048x128_o0_0_S2048x64)
          (constant S256x64 .f32 0x00000000#32) := rfl

/-- The second head's weights are those of the last 64 lanes. -/
theorem k1_pay8_eq (v0 : Vec Ideal S1x256x128 .bf16) (v2 : Vec Ideal S1x2048x128 .bf16) :
    k1_pay8 (F := Ideal) v0 v2
      = softmaxRows (scores (extractStridedSlice S256x64 ![0, 64] (k1_pay3 v0) slices_S256x128_o0_64_S256x64)
          (extractStridedSlice S2048x64 ![0, 64] (k1_pay4 v2) slices_S2048x128_o0_64_S2048x64)) := rfl

/-- The first head's stored block at (0, i, d). -/
theorem k1_head0_apply (v0 : Vec Ideal S1x256x128 .bf16) (v2 v4 : Vec Ideal S1x2048x128 .bf16) (i : Fin 256) (d : Fin 64) :
    k1_pay1 (F := Ideal) (k1_pay6 v0 v2 v4) (ix3 (0 : Fin 1) i d)
      = Cert.Attn.attnRow (fun d' => v0 (ix3 (0 : Fin 1) i (Cert.Attn.lo d')))
          (fun j d' => v2 (ix3 (0 : Fin 1) j (Cert.Attn.lo d'))) (fun j => v4 (ix3 (0 : Fin 1) j (Cert.Attn.lo d))) := by
  unfold k1_pay1
  rw [shapeCast_ab_1ab_apply, truncf_apply, k1_pay6_eq]
  refine (head_apply _ _ _ i d).trans ?_
  simp only [slice_lo_apply, k1_pay3_apply, k1_pay4_apply, k1_pay5_apply]

/-- The second head's stored block at (0, i, d). -/
theorem k1_head1_apply (v0 : Vec Ideal S1x256x128 .bf16) (v2 v4 : Vec Ideal S1x2048x128 .bf16) (i : Fin 256) (d : Fin 64) :
    k1_pay2 (F := Ideal) (k1_pay7 v4) (k1_pay8 v0 v2) (ix3 (0 : Fin 1) i d)
      = Cert.Attn.attnRow (fun d' => v0 (ix3 (0 : Fin 1) i (Cert.Attn.hi d')))
          (fun j d' => v2 (ix3 (0 : Fin 1) j (Cert.Attn.hi d'))) (fun j => v4 (ix3 (0 : Fin 1) j (Cert.Attn.hi d))) := by
  unfold k1_pay2 k1_pay7
  rw [shapeCast_ab_1ab_apply, truncf_apply, k1_pay8_eq]
  refine (head_apply _ _ _ i d).trans ?_
  simp only [slice_hi_apply, k1_pay3_apply, k1_pay4_apply, k1_pay5_apply]

end Cert.KernelIdeal.PayValue

end
-- ==== Proof.ValueReg1.lean ====
/-
  Region 1, from blocks to the whole array: the [2, 2048, 1024] attention output as one function of the one array of
  projected channels the region reads through three windows. Each grid point writes one 1×256×128 block: two heads
  side by side, each stored as one half of the block's lanes; the blocks tile the array.
-/
import proofs.«169975_j65893388255704_2_alg».proof.Proof.FrameI1
import proofs.«169975_j65893388255704_2_alg».proof.Proof.PayAttn
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The zero offsets of a whole rank-3 rectangle. -/
theorem zeros3_1 : (![0, 0, 0] : Fin 3 → Nat) = fun _ => 0 := funext fun a => by fin_cases a <;> rfl

/-- Channel `cc` of query row `s` of batch entry `bb` of the attention output, from the one array of projected
    channels: the head is `cc / 64`, its channel `cc % 64`; the head's queries, keys and values are its 64 lanes of the
    first, second and third thousand-and-twenty-four channels. -/
def attnAt (A : S2x2048x3072.Idx → EReal) (bb : Fin 2) (s : Fin 2048) (cc : Fin 1024) : EReal :=
  Cert.Attn.attnRow (fun d' => A (ix3 bb s (Cert.Attn.pcol 0 ⟨cc.val / 64, by omega⟩ d')))
    (fun j d' => A (ix3 bb j (Cert.Attn.pcol 1 ⟨cc.val / 64, by omega⟩ d')))
    (fun j => A (ix3 bb j (Cert.Attn.pcol 2 ⟨cc.val / 64, by omega⟩ ⟨cc.val % 64, Nat.mod_lt _ (by norm_num)⟩)))

/-- The whole [2, 2048, 1024] attention output as one function of the array of projected channels. -/
def attnArr (A : S2x2048x3072.Idx → EReal) : S2x2048x1024.Idx → EReal :=
  fun i => attnAt A (i 0) (i 1) (i 2)

theorem pcol_val (p : Fin 3) (h : Fin 16) (d : Fin 64) : (Cert.Attn.pcol p h d).val = p.val * 1024 + h.val * 64 + d.val := rfl
theorem lo_val (d : Fin 64) : (Cert.Attn.lo d).val = d.val := rfl
theorem hi_val (d : Fin 64) : (Cert.Attn.hi d).val = 64 + d.val := rfl

/-- The printed index maps over the grid: the query block moves with the result block; the key and value blocks are all
    2048 rows of the same batch entry, at lane blocks 8 and 16 further on. -/
theorem idx_facts1 : ∀ t : Fin cfg1.N, win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = 8 + win1_3.index t (2 : Fin 3)
    ∧ win1_2.index t (0 : Fin 3) = win1_3.index t (0 : Fin 3)
    ∧ win1_2.index t (1 : Fin 3) = 0
    ∧ win1_2.index t (2 : Fin 3) = 16 + win1_3.index t (2 : Fin 3)
    ∧ win1_3.index t (0 : Fin 3) ≤ 1 ∧ win1_3.index t (1 : Fin 3) ≤ 7 ∧ win1_3.index t (2 : Fin 3) ≤ 7 :=
  (by decide +kernel : ∀ t : Fin grid1.N, _)

/-- Every block of the result is some point's. -/
theorem idx_onto1 : ∀ (q0 : Fin 2) (q1 : Fin 8) (q2 : Fin 8), ∃ t : Fin cfg1.N, win1_3.index t = ![q0.val, q1.val, q2.val] :=
  (by decide +kernel : ∀ (q0 : Fin 2) (q1 : Fin 8) (q2 : Fin 8), ∃ t : Fin grid1.N, win1_3.index t = ![q0.val, q1.val, q2.val])

/-- The query block at point `t`, at `(0, i, l)`. -/
theorem iblk1_0_apply (c : Dev nD) (t : Fin cfg1.N) (i : Fin 256) (l : Fin 128) (bb : Fin 2) (s : Fin 2048) (n : Fin 3072)
    (hb : bb.val = win1_3.index t (0 : Fin 3)) (hs : s.val = win1_3.index t (1 : Fin 3) * 256 + i.val)
    (hn : n.val = win1_3.index t (2 : Fin 3) * 128 + l.val) :
    (iblk1 V c 0 t : Vec Ideal S1x256x128 .bf16) (ix3 (0 : Fin 1) i l) = V c main_v13 (ix3 bb s n) := by
  obtain ⟨e0, e1, e2, e3, e4, e5, e6, e7, e8, e9, e10, e11⟩ := idx_facts1 t
  unfold iblk1
  rw [View.read_apply]
  show V c main_v13 _ = V c main_v13 _
  congr 1
  funext a
  apply Fin.ext
  match a with
  | ⟨0, _⟩ => show win1_0.index t (0 : Fin 3) * 1 + 1 * 0 = bb.val; omega
  | ⟨1, _⟩ => show win1_0.index t (1 : Fin 3) * 256 + 1 * i.val = s.val; omega
  | ⟨2, _⟩ => show win1_0.index t (2 : Fin 3) * 128 + 1 * l.val = n.val; omega

/-- The key block at point `t`, at `(0, j, l)`. -/
theorem iblk1_1_apply (c : Dev nD) (t : Fin cfg1.N) (j : Fin 2048) (l : Fin 128) (bb : Fin 2) (n : Fin 3072)
    (hb : bb.val = win1_3.index t (0 : Fin 3)) (hn : n.val = (8 + win1_3.index t (2 : Fin 3)) * 128 + l.val) :
    (iblk1 V c 1 t : Vec Ideal S1x2048x128 .bf16) (ix3 (0 : Fin 1) j l) = V c main_v13 (ix3 bb j n) := by
  obtain ⟨e0, e1, e2, e3, e4, e5, e6, e7, e8, e9, e10, e11⟩ := idx_facts1 t
  unfold iblk1
  rw [View.read_apply]
  show V c main_v13 _ = V c main_v13 _
  congr 1
  funext a
  apply Fin.ext
  match a with
  | ⟨0, _⟩ => show win1_1.index t (0 : Fin 3) * 1 + 1 * 0 = bb.val; omega
  | ⟨1, _⟩ => show win1_1.index t (1 : Fin 3) * 2048 + 1 * j.val = j.val; omega
  | ⟨2, _⟩ => show win1_1.index t (2 : Fin 3) * 128 + 1 * l.val = n.val; omega

/-- The value block at point `t`, at `(0, j, l)`. -/
theorem iblk1_2_apply (c : Dev nD) (t : Fin cfg1.N) (j : Fin 2048) (l : Fin 128) (bb : Fin 2) (n : Fin 3072)
    (hb : bb.val = win1_3.index t (0 : Fin 3)) (hn : n.val = (16 + win1_3.index t (2 : Fin 3)) * 128 + l.val) :
    (iblk1 V c 2 t : Vec Ideal S1x2048x128 .bf16) (ix3 (0 : Fin 1) j l) = V c main_v13 (ix3 bb j n) := by
  obtain ⟨e0, e1, e2, e3, e4, e5, e6, e7, e8, e9, e10, e11⟩ := idx_facts1 t
  unfold iblk1
  rw [View.read_apply]
  show V c main_v13 _ = V c main_v13 _
  congr 1
  funext a
  apply Fin.ext
  match a with
  | ⟨0, _⟩ => show win1_2.index t (0 : Fin 3) * 1 + 1 * 0 = bb.val; omega
  | ⟨1, _⟩ => show win1_2.index t (1 : Fin 3) * 2048 + 1 * j.val = j.val; omega
  | ⟨2, _⟩ => show win1_2.index t (2 : Fin 3) * 128 + 1 * l.val = n.val; omega

/-- The first head of the pair at point `t`: the payload stored in lanes 0..63, at row `i`, channel `d`. -/
theorem lo_piece (c : Dev nD) (t : Fin cfg1.N) (i : Fin 256) (d : Fin 64) (bb : Fin 2) (s : Fin 2048) (cc : Fin 1024)
    (hb : bb.val = win1_3.index t (0 : Fin 3)) (hs : s.val = win1_3.index t (1 : Fin 3) * 256 + i.val)
    (hc : cc.val = win1_3.index t (2 : Fin 3) * 128 + d.val) :
    k1_pay1 (F := Ideal) (k1_pay6 (iblk1 V c 0 t) (iblk1 V c 1 t) (iblk1 V c 2 t)) (ix3 (0 : Fin 1) i d)
      = attnAt (V c main_v13) bb s cc := by
  obtain ⟨e0, e1, e2, e3, e4, e5, e6, e7, e8, e9, e10, e11⟩ := idx_facts1 t
  have hd := d.isLt
  refine (PayValue.k1_head0_apply _ _ _ i d).trans ?_
  unfold attnAt
  congr 1
  · funext d'
    have hd' := d'.isLt
    exact iblk1_0_apply V c t i _ bb s _ hb hs (by rw [pcol_val, lo_val]; show 0 * 1024 + cc.val / 64 * 64 + d'.val = _; omega)
  · funext j d'
    have hd' := d'.isLt
    exact iblk1_1_apply V c t j _ bb _ hb (by rw [pcol_val, lo_val]; show 1 * 1024 + cc.val / 64 * 64 + d'.val = _; omega)
  · funext j
    exact iblk1_2_apply V c t j _ bb _ hb (by rw [pcol_val, lo_val]; show 2 * 1024 + cc.val / 64 * 64 + cc.val % 64 = _; omega)

/-- The second head of the pair: the payload stored in lanes 64..127. -/
theorem hi_piece (c : Dev nD) (t : Fin cfg1.N) (i : Fin 256) (d : Fin 64) (bb : Fin 2) (s : Fin 2048) (cc : Fin 1024)
    (hb : bb.val = win1_3.index t (0 : Fin 3)) (hs : s.val = win1_3.index t (1 : Fin 3) * 256 + i.val)
    (hc : cc.val = win1_3.index t (2 : Fin 3) * 128 + (64 + d.val)) :
    k1_pay2 (F := Ideal) (k1_pay7 (iblk1 V c 2 t)) (k1_pay8 (iblk1 V c 0 t) (iblk1 V c 1 t)) (ix3 (0 : Fin 1) i d)
      = attnAt (V c main_v13) bb s cc := by
  obtain ⟨e0, e1, e2, e3, e4, e5, e6, e7, e8, e9, e10, e11⟩ := idx_facts1 t
  have hd := d.isLt
  refine (PayValue.k1_head1_apply _ _ _ i d).trans ?_
  unfold attnAt
  congr 1
  · funext d'
    have hd' := d'.isLt
    exact iblk1_0_apply V c t i _ bb s _ hb hs (by rw [pcol_val, hi_val]; show 0 * 1024 + cc.val / 64 * 64 + d'.val = _; omega)
  · funext j d'
    have hd' := d'.isLt
    exact iblk1_1_apply V c t j _ bb _ hb (by rw [pcol_val, hi_val]; show 1 * 1024 + cc.val / 64 * 64 + d'.val = _; omega)
  · funext j
    exact iblk1_2_apply V c t j _ bb _ hb (by rw [pcol_val, hi_val]; show 2 * 1024 + cc.val / 64 * 64 + cc.val % 64 = _; omega)

/-- What point `t` writes back is block `t` of the whole-array function of the projected channels as the region finds
    them: the staging buffer's two stores are the two halves of the block of that function. -/
theorem flushed1_eq (c : Dev nD) (t : Fin cfg1.N) :
    (dat1 V c).flushed 3 t = ((cfg1.win 3).blk t).view.read (Elt Ideal) (attnArr (V c main_v13)) := by
  show (cfg1.win 3).cut (grid1.coords t) ((dat1 V c).after 3 t) = _
  rw [after1_3]
  unfold out1_3
  simp only [View.ld_unit_zero (S := S1x256x128) zeros3_1, View.ld_unit_zero (S := S1x2048x128) zeros3_1]
  funext y
  show View.canon ([⟨rHi, k1_pay2 (F := Ideal) (k1_pay7 (iblk1 V c 2 t)) (k1_pay8 (iblk1 V c 0 t) (iblk1 V c 1 t))⟩,
      ⟨rLo, k1_pay1 (F := Ideal) (k1_pay6 (iblk1 V c 0 t) (iblk1 V c 1 t) (iblk1 V c 2 t))⟩] : List (View.Piece (Elt Ideal) S1x256x128 .bf16)) y
    = attnArr (V c main_v13) (((cfg1.win 3).blk t).view.emb y)
  refine View.canon_apply_of_pieces (Val := Elt Ideal) (S := S1x256x128) (e := .bf16)
    (fun y => (attnArr (V c main_v13) (((cfg1.win 3).blk t).view.emb y) : Elt Ideal .bf16)) _ ?_ y (cover1_3 _ _ y)
  intro p hp x
  simp only [List.mem_cons, List.mem_singleton, List.not_mem_nil, or_false] at hp
  rcases hp with rfl | rfl
  · obtain ⟨z, i, d, rfl⟩ : ∃ (z : Fin 1) (i : Fin 256) (d : Fin 64), x = ix3 z i d :=
      ⟨x 0, x 1, x 2, eq_ix3 (n0 := 1) (n1 := 256) (n2 := 64) x⟩
    obtain rfl : z = 0 := Subsingleton.elim _ _
    show k1_pay2 (F := Ideal) (k1_pay7 (iblk1 V c 2 t)) (k1_pay8 (iblk1 V c 0 t) (iblk1 V c 1 t)) (ix3 (0 : Fin 1) i d)
      = attnAt (V c main_v13) (((cfg1.win 3).blk t).view.emb (rHi.emb (ix3 (0 : Fin 1) i d)) 0)
          (((cfg1.win 3).blk t).view.emb (rHi.emb (ix3 (0 : Fin 1) i d)) 1) (((cfg1.win 3).blk t).view.emb (rHi.emb (ix3 (0 : Fin 1) i d)) 2)
    refine hi_piece V c t i d _ _ _ ?_ ?_ ?_
    · show win1_3.index t (0 : Fin 3) * 1 + 1 * (0 + 1 * 0) = _; omega
    · show win1_3.index t (1 : Fin 3) * 256 + 1 * (0 + 1 * i.val) = _; omega
    · show win1_3.index t (2 : Fin 3) * 128 + 1 * (64 + 1 * d.val) = _; omega
  · obtain ⟨z, i, d, rfl⟩ : ∃ (z : Fin 1) (i : Fin 256) (d : Fin 64), x = ix3 z i d :=
      ⟨x 0, x 1, x 2, eq_ix3 (n0 := 1) (n1 := 256) (n2 := 64) x⟩
    obtain rfl : z = 0 := Subsingleton.elim _ _
    show k1_pay1 (F := Ideal) (k1_pay6 (iblk1 V c 0 t) (iblk1 V c 1 t) (iblk1 V c 2 t)) (ix3 (0 : Fin 1) i d)
      = attnAt (V c main_v13) (((cfg1.win 3).blk t).view.emb (rLo.emb (ix3 (0 : Fin 1) i d)) 0)
          (((cfg1.win 3).blk t).view.emb (rLo.emb (ix3 (0 : Fin 1) i d)) 1) (((cfg1.win 3).blk t).view.emb (rLo.emb (ix3 (0 : Fin 1) i d)) 2)
    refine lo_piece V c t i d _ _ _ ?_ ?_ ?_
    · show win1_3.index t (0 : Fin 3) * 1 + 1 * (0 + 1 * 0) = _; omega
    · show win1_3.index t (1 : Fin 3) * 256 + 1 * (0 + 1 * i.val) = _; omega
    · show win1_3.index t (2 : Fin 3) * 128 + 1 * (0 + 1 * d.val) = _; omega

/-- An index of the result array is in point `t`'s block iff each coordinate is in the block's range on its axis. -/
theorem mem_blk1 (t : Fin cfg1.N) (i : S2x2048x1024.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v14).slice (win1_3.rect t)).set ↔ _
  rw [View.set_slice_whole, Rect.mem_set_unit]
  exact Iff.rfl

/-- The blocks tile the array: entry `(bb, s, cc)` is in the block with block indices `(bb, s / 256, cc / 128)`. -/
theorem cover1 (i : S2x2048x1024.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto1 ⟨(i 0).val, hi0⟩ ⟨(i 1).val / 256, by omega⟩ ⟨(i 2).val / 128, by omega⟩
  have q0 : win1_3.index t (0 : Fin 3) = (i 0).val := congrFun ht 0
  have q1 : win1_3.index t (1 : Fin 3) = (i 1).val / 256 := congrFun ht 1
  have q2 : win1_3.index t (2 : Fin 3) = (i 2).val / 128 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- The attention output after the region: channel `cc` of row `s` of batch entry `bb` is head `cc / 64`'s
    softmax-weighted sum of channel `cc % 64` of its value rows. -/
theorem final1 (c : Dev nD) (bb : Fin 2) (s : Fin 2048) (cc : Fin 1024) :
    (dat1 V c).arrAt 3 cfg1.N (ix3 bb s cc)
      = Cert.Attn.attnRow (fun d' => V c main_v13 (ix3 bb s (Cert.Attn.pcol 0 ⟨cc.val / 64, by omega⟩ d')))
          (fun j d' => V c main_v13 (ix3 bb j (Cert.Attn.pcol 1 ⟨cc.val / 64, by omega⟩ d')))
          (fun j => V c main_v13 (ix3 bb j (Cert.Attn.pcol 2 ⟨cc.val / 64, by omega⟩ ⟨cc.val % 64, Nat.mod_lt _ (by norm_num)⟩))) :=
  congrFun ((dat1 V c).arrAt_eq_of_cover 3 (attnArr (V c main_v13)) (fun t _ => flushed1_eq V c t) cover1) (ix3 bb s cc)

end Cert.KernelIdeal.Fr

end
-- ==== Proof.ValueReg2.lean ====
/-
  Region 2, from blocks to the whole array: the 4096×1024 result of the output projection as one function of the three
  arrays the region reads. Each grid point writes one 512×512 block of it; the blocks tile the array.
-/
import proofs.«169975_j65893388255704_2_alg».proof.Proof.FrameI2
import proofs.«169975_j65893388255704_2_alg».proof.Proof.PayProj
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The zero offsets of a whole rectangle. -/
theorem zeros2_2 : (![0, 0] : Fin 2 → Nat) = fun _ => 0 := funext fun a => by fin_cases a <;> rfl

/-- Entry `(r, e)` of the product of the rows against the transposed weight rows, plus the bias of column `n`. -/
def projAt2 (X : S4096x1024.Idx → EReal) (W : S1024x1024.Idx → EReal) (B : S1x1024.Idx → EReal) (r : Fin 4096) (n : Fin 1024) : EReal :=
  Cert.Attn.affine (fun k : Fin 1024 => X (ix2 r k)) (fun k : Fin 1024 => W (ix2 n k)) (B (ix2 (0 : Fin 1) n))

/-- The whole 4096×1024 result as one function of the three arrays. -/
def projArr2 (X : S4096x1024.Idx → EReal) (W : S1024x1024.Idx → EReal) (B : S1x1024.Idx → EReal) : S4096x1024.Idx → EReal :=
  fun i => projAt2 X W B (i 0) (i 1)

/-- The printed index maps over the grid: the left operand's row block and the result's row block are the same and its
    column block is 0; the right operand's row block and the bias's column block are the result's column block. -/
theorem idx_facts2 : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7 ∧ win2_3.index t (1 : Fin 2) ≤ 1 :=
  (by decide +kernel : ∀ t : Fin grid2.N, _)

/-- Every block of the result is some point's. -/
theorem idx_onto2 : ∀ (q0 : Fin 8) (q1 : Fin 2), ∃ t : Fin cfg2.N, win2_3.index t = ![q0.val, q1.val] :=
  (by decide +kernel : ∀ (q0 : Fin 8) (q1 : Fin 2), ∃ t : Fin grid2.N, win2_3.index t = ![q0.val, q1.val])

/-- The left operand's block at point `t`, at `(p, k)`, is the array at row `index·512 + p`. -/
theorem iblk2_0_apply (c : Dev nD) (t : Fin cfg2.N) (p : Fin 512) (k : Fin 1024) (r : Fin 4096)
    (hr : r.val = win2_3.index t (0 : Fin 2) * 512 + p.val) :
    (iblk2 V c 0 t : Vec Ideal S512x1024 .bf16) (ix2 p k) = V c main_v15 (ix2 r k) := by
  obtain ⟨e0, e1, e2, e3, e4, e5, e6, e7⟩ := idx_facts2 t
  unfold iblk2
  rw [View.read_apply]
  show V c main_v15 _ = V c main_v15 _
  congr 1
  funext a
  apply Fin.ext
  match a with
  | ⟨0, _⟩ => show win2_0.index t (0 : Fin 2) * 512 + 1 * p.val = r.val; omega
  | ⟨1, _⟩ => show win2_0.index t (1 : Fin 2) * 1024 + 1 * k.val = k.val; omega

/-- The right operand's block at point `t`, at `(q, k)`, is the array at row `index·512 + q`. -/
theorem iblk2_1_apply (c : Dev nD) (t : Fin cfg2.N) (q : Fin 512) (k : Fin 1024) (n : Fin 1024)
    (hn : n.val = win2_3.index t (1 : Fin 2) * 512 + q.val) :
    (iblk2 V c 1 t : Vec Ideal S512x1024 .f32) (ix2 q k) = V c main_arg3 (ix2 n k) := by
  obtain ⟨e0, e1, e2, e3, e4, e5, e6, e7⟩ := idx_facts2 t
  unfold iblk2
  rw [View.read_apply]
  show V c main_arg3 _ = V c main_arg3 _
  congr 1
  funext a
  apply Fin.ext
  match a with
  | ⟨0, _⟩ => show win2_1.index t (0 : Fin 2) * 512 + 1 * q.val = n.val; omega
  | ⟨1, _⟩ => show win2_1.index t (1 : Fin 2) * 1024 + 1 * k.val = k.val; omega

/-- The bias block at point `t`, at `(0, q)`, is the bias row at column `index·512 + q`. -/
theorem iblk2_2_apply (c : Dev nD) (t : Fin cfg2.N) (q : Fin 512) (n : Fin 1024)
    (hn : n.val = win2_3.index t (1 : Fin 2) * 512 + q.val) :
    (iblk2 V c 2 t : Vec Ideal S1x512 .f32) (ix2 (0 : Fin 1) q) = V c main_v16 (ix2 (0 : Fin 1) n) := by
  obtain ⟨e0, e1, e2, e3, e4, e5, e6, e7⟩ := idx_facts2 t
  unfold iblk2
  rw [View.read_apply]
  show V c main_v16 _ = V c main_v16 _
  congr 1
  funext a
  apply Fin.ext
  match a with
  | ⟨0, _⟩ => show win2_2.index t (0 : Fin 2) * 1 + 1 * 0 = 0; omega
  | ⟨1, _⟩ => show win2_2.index t (1 : Fin 2) * 512 + 1 * q.val = n.val; omega

/-- The body's payload of the three blocks of point `t`, at `(p, q)`, is the whole-array entry the result block's
    rectangle names. -/
theorem blk2_point (c : Dev nD) (t : Fin cfg2.N) (p q : Fin 512) (r : Fin 4096) (n : Fin 1024)
    (hr : r.val = win2_3.index t (0 : Fin 2) * 512 + p.val) (hn : n.val = win2_3.index t (1 : Fin 2) * 512 + q.val) :
    k2_pay1 (F := Ideal) (iblk2 V c 0 t) (iblk2 V c 1 t) (iblk2 V c 2 t) (ix2 p q)
      = projAt2 (V c main_v15) (V c main_arg3) (V c main_v16) r n := by
  refine (PayValue.k2_pay1_apply _ _ _ p q).trans ?_
  unfold projAt2
  congr 1
  · funext k; exact iblk2_0_apply V c t p k r hr
  · funext k; exact iblk2_1_apply V c t q k n hn
  · exact iblk2_2_apply V c t q n hn

/-- What point `t` writes back is block `t` of the whole-array function of the arrays as the region finds them. -/
theorem flushed2_eq (c : Dev nD) (t : Fin cfg2.N) :
    (dat2 V c).flushed 3 t = ((cfg2.win 3).blk t).view.read (Elt Ideal) (projArr2 (V c main_v15) (V c main_arg3) (V c main_v16)) := by
  show (cfg2.win 3).cut (grid2.coords t) ((dat2 V c).after 3 t) = _
  rw [after2_3]
  unfold out2_3
  rw [View.canon_unit_zero zeros2_2]
  simp only [View.ld_unit_zero (S := S512x1024) zeros2_2, View.ld_unit_zero (S := S1x512) zeros2_2]
  funext j
  obtain ⟨p, q, rfl⟩ : ∃ p q : Fin 512, j = ix2 p q := ⟨j 0, j 1, eq_ix2 (n0 := 512) (n1 := 512) j⟩
  show k2_pay1 (F := Ideal) (iblk2 V c 0 t) (iblk2 V c 1 t) (iblk2 V c 2 t) (ix2 p q)
    = projAt2 (V c main_v15) (V c main_arg3) (V c main_v16) (((cfg2.win 3).blk t).view.emb (ix2 p q) 0) (((cfg2.win 3).blk t).view.emb (ix2 p q) 1)
  refine blk2_point V c t p q _ _ ?_ ?_
  · show win2_3.index t (0 : Fin 2) * 512 + 1 * p.val = _; omega
  · show win2_3.index t (1 : Fin 2) * 512 + 1 * q.val = _; omega

/-- An index of the result array is in point `t`'s block iff each coordinate is in the block's range on its axis. -/
theorem mem_blk2 (t : Fin cfg2.N) (i : S4096x1024.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v17).slice (win2_3.rect t)).set ↔ _
  rw [View.set_slice_whole, Rect.mem_set_unit]
  exact Iff.rfl

/-- The blocks tile the array: entry `(r, e)` is in the block of the point with block indices `(r / 512, n / 512)`. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The result array after the region: every entry is the row against the transposed weight row, plus the bias. -/
theorem final2 (c : Dev nD) (r : Fin 4096) (n : Fin 1024) :
    (dat2 V c).arrAt 3 cfg2.N (ix2 r n)
      = Cert.Attn.affine (fun k : Fin 1024 => V c main_v15 (ix2 r k)) (fun k : Fin 1024 => V c main_arg3 (ix2 n k)) (V c main_v16 (ix2 (0 : Fin 1) n)) :=
  congrFun ((dat2 V c).arrAt_eq_of_cover 3 (projArr2 (V c main_v15) (V c main_arg3) (V c main_v16)) (fun t _ => flushed2_eq V c t) cover2) (ix2 r n)

end Cert.KernelIdeal.Fr

end
-- ==== Proof.HostReshape.lean ====
/-
  A [2, 2048, C] array and its [4096, C] flattening, read at an index: row r of the flat array is row r mod 2048 of
  batch entry r / 2048, and entry (b, s) of the split array is row b · 2048 + s. A reshape keeps the row-major position
  of every element.
-/
import Idealize.ShloMosaic.Lib.Pipeline.Value
import Idealize.ShloMosaic.Lib.ValueIdx

noncomputable section

namespace Cert.KernelIdeal.HostValue

open Idealize.ShloMosaic Idealize.ShloMosaic.ValueIdx

/-- A [2, 2048, C] array flattened to [4096, C]: row r is row r mod 2048 of batch entry r / 2048. -/
theorem cast_flatten {α : Type} {C : ℕ} (x : (⟨3, ![2, 2048, C]⟩ : Shape).Idx → α)
    (h : (⟨3, ![2, 2048, C]⟩ : Shape).ShapeCasts ⟨2, ![4096, C]⟩) (r : Fin 4096) (k : Fin C) :
    shapeCast ⟨2, ![4096, C]⟩ x h (ix2 r k)
      = x (ix3 (⟨r.val / 2048, by omega⟩ : Fin 2) (⟨r.val % 2048, Nat.mod_lt _ (by norm_num)⟩ : Fin 2048) k) :=
  shapeCast_apply x h _ _ (by
    rw [Shape.rowMajor_val_three, Shape.rowMajor_val_two]
    show (r.val / 2048 * 2048 + r.val % 2048) * C + k.val = r.val * C + k.val
    rw [Nat.div_add_mod'])

/-- A [4096, C] array split to [2, 2048, C]: entry (b, s) is row b · 2048 + s. -/
theorem cast_split {α : Type} {C : ℕ} (x : (⟨2, ![4096, C]⟩ : Shape).Idx → α)
    (h : (⟨2, ![4096, C]⟩ : Shape).ShapeCasts ⟨3, ![2, 2048, C]⟩) (bb : Fin 2) (s : Fin 2048) (n : Fin C) :
    shapeCast ⟨3, ![2, 2048, C]⟩ x h (ix3 bb s n) = x (ix2 (⟨bb.val * 2048 + s.val, by omega⟩ : Fin 4096) n) :=
  shapeCast_apply x h _ _ (by
    rw [Shape.rowMajor_val_two, Shape.rowMajor_val_three]
    rfl)

end Cert.KernelIdeal.HostValue

end
-- ==== Proof.HostTable.lean ====
/-
  The constant table of 3072 row numbers the kernel's host code gathers the fused weight and bias by.
  Position n of the table, read as a signed integer and clamped into [0, 3071] the way a gather reads a start
  index, is the channel (n mod 1024 / 64) · 192 + (n / 1024) · 64 + n mod 64: the table lists the channels grouped
  by part (all queries, then all keys, then all values), each head by head. A finite check over the 3072 positions.
-/
import proofs.«169975_j65893388255704_2_alg».proof.KernelIdeal
import proofs.«169975_j65893388255704_2_alg».proof.Proof.Spec

namespace Cert.KernelIdeal.HostValue

open Cert.KernelIdeal Idealize.ShloMosaic

/-- Entry n read as a gather reads a start index — signed, clamped into [0, 3071] — is the channel at position n. -/
theorem lit0_clamp : ∀ n : Fin 3072, min (lit0 n).toInt.toNat (3072 - 1) = (Cert.Attn.perm n).val := by
  decide +kernel

end Cert.KernelIdeal.HostValue
-- ==== Proof.LibVecGather.lean ====
/-
  A host gather of the entries of a vector named by an index list, read at an index: operand of N entries, an E×1
  integer array of start indices, result of E entries. Entry e of the result is the operand's entry r, r the e-th
  index read as a signed integer and clamped into [0, N − 1].
-/
import Idealize.ShloMosaic.Lib.ValueIdx

noncomputable section

namespace Cert.KernelIdeal.HostValue

open Idealize.ShloMosaic Idealize.ShloMosaic.ValueIdx

variable {N E w : ℕ}

/-- "Take entries": operand of N entries, start indices E×1 (one entry number each), result of E entries. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at e is the operand at the e-th index, read signed and clamped. -/
theorem vecGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.KernelIdeal.HostValue

end
-- ==== Proof.LibSegSum.lean ====
/-
  Gathering rows and accumulating rows by an index list, read at an index, on the extended reals.
  An array of N rows of width W, an index list of E entries (an E×1 integer array):
  * the gather of the rows named by the list has, at (e, q), the array's entry (r, q), r the e-th index read as a signed
    integer and clamped into [0, N − 1];
  * the accumulating scatter of E rows into the array adds to entry (i, q) the entries (e, q) of exactly those rows e whose
    index is i (an index outside [0, N) adds nowhere); for a vector of N entries and E scalars the same, without q;
  * dividing by max(n, 1), n a count, is multiplying by its reciprocal 1 / max(n, 1).
-/
import Idealize.ShloMosaic.Lib.ValueIdx
import Idealize.ShloMosaic.PureOps.Ideal.Laws

noncomputable section

namespace Cert.LibSegSum

open Idealize.ShloMosaic Idealize.ShloMosaic.ValueIdx

variable {N W E w : ℕ}

/-! ## The gather of rows -/

/-- "Take rows": operand N×W, start indices E×1 (one row number each), result E×W. -/
abbrev rowGather (N W E : ℕ) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row the e-th index names: read signed, clamped into [0, N − 1]. -/
def rowOfIdx (hN : 0 < N) (idx : IVec ⟨2, ![E, 1]⟩ w) (e : Fin E) : Fin N :=
  ⟨min (idx (ix2 e (0 : Fin 1))).toInt.toNat (N - 1), by omega⟩

/-- The gather at (e, q) is the operand at (row of e, q). -/
theorem rowGather_apply {α : Type} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (q : Fin W) :
    Host.gather (rowGather N W E wf) x idx (ix2 e q) = x (ix2 (rowOfIdx hN idx e) q) := by
  unfold Host.gather
  congr 1
  funext a
  refine Fin.ext ?_
  match a with
  | ⟨0, _⟩ =>
    show (rowGather N W E wf).start (ix2 e q) idx 0 + (rowGather N W E wf).batchCoord (ix2 e q) 0
        + (rowGather N W E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N W E wf).startIndexMap from List.mem_singleton.mpr rfl)]
    have hsi : (rowGather N W E wf).siIdx (ix2 e q) ⟨List.idxOf (0 : Fin 2) (rowGather N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N W E wf).start (ix2 e q) idx 1 + (rowGather N W E wf).batchCoord (ix2 e q) 1
        + (rowGather N W E wf).offCoord (ix2 e q) 1 = _
    rw [GatherDims.batchCoord_eq_zero _ _ _ List.not_mem_nil]
    have hst : (rowGather N W E wf).start (ix2 e q) idx 1 = 0 := by
      unfold GatherDims.start
      rw [dif_neg (show ¬ ((1 : Fin 2) ∈ ([0] : List (Fin 2))) by decide)]
    have hoff : (rowGather N W E wf).offCoord (ix2 e q) 1 = q.val := by
      unfold GatherDims.offCoord
      rw [dif_pos ((GatherDims.mem_sKept _ _).2 ⟨show ¬ ((1 : Fin 2) ∈ ([0] : List (Fin 2))) by decide, List.not_mem_nil⟩)]
      rfl
    rw [hst, hoff, Nat.add_zero, Nat.zero_add]

/-! ## The accumulating scatter of rows -/

/-- "Add rows at": operand N×W, scatter indices E×1 (one row number each), updates E×W. -/
abbrev rowScatter (N W E : ℕ) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable (wf : ScatterDims.WF ⟨2, ![N, W]⟩ ⟨2, ![E, 1]⟩ ⟨2, ![E, W]⟩ [1] [0] [0] 1) (idx : IVec ⟨2, ![E, 1]⟩ w)
  (e : Fin E) (q : Fin W)

theorem rowScatter_start0 : (rowScatter N W E wf).start (ix2 e q) idx 0 = (idx (ix2 e (0 : Fin 1))).toInt := by
  unfold ScatterDims.start
  rw [dif_pos (show (0 : Fin 2) ∈ (rowScatter N W E wf).scatterDimsToOperandDims from List.mem_singleton.mpr rfl)]
  have hsi : (rowScatter N W E wf).siIdx (ix2 e q) ⟨List.idxOf (0 : Fin 2) (rowScatter N W E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatter N W E wf).start (ix2 e q) idx 1 = 0 := by
  unfold ScatterDims.start
  rw [dif_neg (show ¬ ((1 : Fin 2) ∈ ([0] : List (Fin 2))) by decide)]

theorem rowScatter_window0 : (rowScatter N W E wf).window (ix2 e q) 0 = 0 := by
  unfold ScatterDims.window
  exact dif_neg (by simp [ScatterDims.sKept, Shape.kept])

theorem rowScatter_window1 : (rowScatter N W E wf).window (ix2 e q) 1 = q.val := by
  unfold ScatterDims.window
  rw [dif_pos (by simp [ScatterDims.sKept, Shape.kept] : (1 : Fin 2) ∈ (rowScatter N W E wf).sKept)]
  rfl

/-- Row e of the updates lands on (i, q') from column q exactly when its index is i and the columns agree. -/
theorem rowScatter_resultIdx_iff (q' : Fin W) (i : Fin N) :
    (rowScatter N W E wf).resultIdx? (ix2 e q) idx = some (ix2 i q')
      ↔ (idx (ix2 e (0 : Fin 1))).toInt = (i.val : ℤ) ∧ q = q' := by
  have hi := i.isLt
  have hq := q.isLt
  unfold ScatterDims.resultIdx?
  split
  · rename_i h
    rw [Option.some.injEq]
    constructor
    · intro hf
      have h0 := congrArg (fun f => (f 0).val) hf
      have h1 := congrArg (fun f => (f 1).val) hf
      have hh := (h 0).1
      rw [rowScatter_start0, rowScatter_window0] at hh
      change ((rowScatter N W E wf).start (ix2 e q) idx 0 + ((rowScatter N W E wf).window (ix2 e q) 0 : ℕ)).toNat = i.val at h0
      change ((rowScatter N W E wf).start (ix2 e q) idx 1 + ((rowScatter N W E wf).window (ix2 e q) 1 : ℕ)).toNat = q'.val at h1
      rw [rowScatter_start0, rowScatter_window0] at h0
      rw [rowScatter_start1, rowScatter_window1] at h1
      exact ⟨by omega, Fin.ext (by omega)⟩
    · rintro ⟨ht, rfl⟩
      funext a; refine Fin.ext ?_
      match a with
      | ⟨0, _⟩ =>
        show ((rowScatter N W E wf).start (ix2 e q) idx 0 + ((rowScatter N W E wf).window (ix2 e q) 0 : ℕ)).toNat = i.val
        rw [rowScatter_start0, rowScatter_window0, ht]; omega
      | ⟨1, _⟩ =>
        show ((rowScatter N W E wf).start (ix2 e q) idx 1 + ((rowScatter N W E wf).window (ix2 e q) 1 : ℕ)).toNat = q.val
        rw [rowScatter_start1, rowScatter_window1]; omega
  · rename_i h
    constructor
    · intro hf; exact absurd hf (by simp)
    · rintro ⟨ht, rfl⟩
      exfalso; apply h
      intro a
      match a with
      | ⟨0, _⟩ =>
        show 0 ≤ (rowScatter N W E wf).start (ix2 e q) idx 0 + ((rowScatter N W E wf).window (ix2 e q) 0 : ℕ)
          ∧ (rowScatter N W E wf).start (ix2 e q) idx 0 + ((rowScatter N W E wf).window (ix2 e q) 0 : ℕ) < (N : ℤ)
        rw [rowScatter_start0, rowScatter_window0, ht]; constructor <;> omega
      | ⟨1, _⟩ =>
        show 0 ≤ (rowScatter N W E wf).start (ix2 e q) idx 1 + ((rowScatter N W E wf).window (ix2 e q) 1 : ℕ)
          ∧ (rowScatter N W E wf).start (ix2 e q) idx 1 + ((rowScatter N W E wf).window (ix2 e q) 1 : ℕ) < (W : ℤ)
        rw [rowScatter_start1, rowScatter_window1]; constructor <;> omega

end RowScatter

/-- The rows of the index list that name row i. -/
def landing (idx : IVec ⟨2, ![E, 1]⟩ w) (i : Fin N) : Finset (Fin E) :=
  Finset.univ.filter fun e => (idx (ix2 e (0 : Fin 1))).toInt = (i.val : ℤ)

/-- The accumulating scatter at (i, q): the operand's entry plus the entries (e, q) of the rows e landing on i. -/
theorem rowScatterAdd_apply (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (i : Fin N) (q : Fin W) :
    Ideal.hostScatterAdd (rowScatter N W E wf) x idx upd (ix2 i q)
      = x (ix2 i q) + ∑ e ∈ landing idx i, upd (ix2 e q) := by
  unfold Ideal.hostScatterAdd
  congr 1
  symm
  refine Finset.sum_bij (fun e _ => ix2 e q) ?_ ?_ ?_ ?_
  · intro e he
    rw [Finset.mem_filter]
    exact ⟨Finset.mem_univ _, (rowScatter_resultIdx_iff wf idx e q q i).2 ⟨(Finset.mem_filter.1 he).2, rfl⟩⟩
  · intro e _ e' _ hee
    have := congrArg (fun f => (f 0).val) hee
    exact Fin.ext this
  · intro j hj
    rw [Finset.mem_filter] at hj
    obtain ⟨e, q'', rfl⟩ : ∃ (e : Fin E) (q'' : Fin W), j = ix2 e q'' := ⟨j 0, j 1, eq_ix2 j⟩
    obtain ⟨ht, rfl⟩ := (rowScatter_resultIdx_iff wf idx e q'' q i).1 hj.2
    exact ⟨e, Finset.mem_filter.2 ⟨Finset.mem_univ _, ht⟩, rfl⟩
  · intro e _; rfl

/-! ## The accumulating scatter of scalars into a vector -/

/-- "Add at": operand of N entries, scatter indices E×1, updates E scalars. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1) (idx : IVec ⟨2, ![E, 1]⟩ w) (e : Fin E)

theorem vecScatter_start0 : (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window0 : (vecScatter N E wf).window (ix1 e) 0 = 0 := by
  unfold ScatterDims.window
  exact dif_neg (by simp [ScatterDims.sKept, Shape.kept])

/-- Scalar e of the updates lands on entry i exactly when its index is i. -/
theorem vecScatter_resultIdx_iff (i : Fin N) :
    (vecScatter N E wf).resultIdx? (ix1 e) idx = some (ix1 i) ↔ (idx (ix2 e (0 : Fin 1))).toInt = (i.val : ℤ) := by
  have hi := i.isLt
  unfold ScatterDims.resultIdx?
  split
  · rename_i h
    rw [Option.some.injEq]
    constructor
    · intro hf
      have h0 := congrArg (fun f => (f 0).val) hf
      have hh := (h 0).1
      rw [vecScatter_start0, vecScatter_window0] at hh
      change ((vecScatter N E wf).start (ix1 e) idx 0 + ((vecScatter N E wf).window (ix1 e) 0 : ℕ)).toNat = i.val at h0
      rw [vecScatter_start0, vecScatter_window0] at h0
      omega
    · intro ht
      funext a; refine Fin.ext ?_
      match a with
      | ⟨0, _⟩ =>
        show ((vecScatter N E wf).start (ix1 e) idx 0 + ((vecScatter N E wf).window (ix1 e) 0 : ℕ)).toNat = i.val
        rw [vecScatter_start0, vecScatter_window0, ht]; omega
  · rename_i h
    constructor
    · intro hf; exact absurd hf (by simp)
    · intro ht
      exfalso; apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start0, vecScatter_window0, ht]; constructor <;> omega

end VecScatter

/-- The accumulating scatter at entry i: the operand's entry plus the scalars e landing on i. -/
theorem vecScatterAdd_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatter N E wf) x idx upd (ix1 i) = x (ix1 i) + ∑ e ∈ landing idx i, upd (ix1 e) := by
  unfold Ideal.hostScatterAdd
  congr 1
  symm
  refine Finset.sum_bij (fun e _ => ix1 e) ?_ ?_ ?_ ?_
  · intro e he
    rw [Finset.mem_filter]
    exact ⟨Finset.mem_univ _, (vecScatter_resultIdx_iff wf idx e i).2 (Finset.mem_filter.1 he).2⟩
  · intro e _ e' _ hee
    have := congrArg (fun f => (f 0).val) hee
    exact Fin.ext this
  · intro j hj
    rw [Finset.mem_filter] at hj
    obtain ⟨e, rfl⟩ : ∃ e : Fin E, j = ix1 e := ⟨j 0, eq_ix1 j⟩
    exact ⟨e, Finset.mem_filter.2 ⟨Finset.mem_univ _, (vecScatter_resultIdx_iff wf idx e i).1 hj.2⟩, rfl⟩
  · intro e _; rfl

/-! ## The mean: dividing by the count, or multiplying by its reciprocal -/

/-- A count of ones, as an extended real, is the natural number. -/
theorem sum_ones (s : Finset (Fin E)) : (0 : EReal) + ∑ _e ∈ s, (1 : EReal) = ((s.card : ℝ) : EReal) := by
  rw [zero_add]
  induction s using Finset.induction_on with
  | empty => simp
  | insert a s ha ih =>
    rw [Finset.sum_insert ha, ih, Finset.card_insert_of_notMem ha]
    push_cast
    rw [add_comm]

/-- With c = max(n, 1) for a count n: s · (1 / c) = s / c, for every extended real s. -/
theorem mul_inv_count (s : EReal) (n : ℕ) :
    s * Ideal.div 1 (max ((n : ℝ) : EReal) 1) = Ideal.div s (max ((n : ℝ) : EReal) 1) := by
  have hc : max ((n : ℝ) : EReal) 1 = ((max (n : ℝ) 1 : ℝ) : EReal) := by
    rcases le_total (n : ℝ) 1 with h | h
    · rw [max_eq_right h, max_eq_right (by exact_mod_cast h)]; rfl
    · rw [max_eq_left h, max_eq_left (by exact_mod_cast h)]
  have hne : (max (n : ℝ) 1 : ℝ) ≠ 0 := by
    have : (1 : ℝ) ≤ max (n : ℝ) 1 := le_max_right _ _
    linarith
  rw [hc, Ideal.div_coe hne, Ideal.div_coe hne, one_mul]

end Cert.LibSegSum

end
-- ==== Proof.HostStretch0.lean ====
/-
  The first stretch of host operations of the kernel's main function, read at an index. It permutes the rows of the
  fused weight and the entries of the fused bias by a constant table (a gather whose start indices are the table:
  the table plus 3072 is computed too, but chosen by a mask that is false everywhere, so the indices are the table
  itself), flattens the input to [4096, 1024] and gives the permuted bias a leading unit axis. Row n of the permuted
  weight is row perm n of the weight: position n of the layout grouped by part holds channel perm n.
-/
import proofs.«169975_j65893388255704_2_alg».proof.Proof.Gen.KernelIdeal.Launch
import proofs.«169975_j65893388255704_2_alg».proof.Proof.HostReshape
import proofs.«169975_j65893388255704_2_alg».proof.Proof.HostTable
import proofs.«169975_j65893388255704_2_alg».proof.Proof.LibVecGather
import proofs.«169975_j65893388255704_2_alg».proof.Proof.LibSegSum
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx

/-! ## The start indices -/

/-- The column of start indices both gathers read: the table, selected against the table plus 3072 by a mask that
    is false everywhere, as a [3072, 1] array. -/
def idxCol : IVec S3072x1 32 :=
  broadcastInDim S3072x1 ![0] Facts₀.bcast_S3072_S3072x1_0
    (select (constantI S3072 1 0#1)
      (addi (fun i => lit0 (S3072.rowMajor i)) (broadcastInDim S3072 ![] Facts₀.bcast_S_S3072 (constantI S_ 32 3072#32)))
      fun i => lit0 (S3072.rowMajor i))

/-- Its n-th entry is the table's. -/
theorem idxCol_apply (n : Fin 3072) : idxCol (ix2 n (0 : Fin 1)) = lit0 n := by
  unfold idxCol
  refine (broadcastInDim_apply _ _ _ _ (ix1 n) ?_).trans ?_
  · intro a
    obtain rfl : a = 0 := Subsingleton.elim _ _
    rfl
  · refine (select_apply _ _ _ _).trans ((select_zero _ _).trans ?_)
    exact congrArg lit0 (Fin.ext (Shape.rowMajor_val_one _))

/-- The row the n-th start index names, read signed and clamped into [0, 3071], is channel perm n. -/
theorem idxCol_row (n : Fin 3072) :
    min (idxCol (ix2 n (0 : Fin 1))).toInt.toNat (3072 - 1) = (Cert.Attn.perm n).val := by
  rw [idxCol_apply]
  exact lit0_clamp n

/-! ## The stretch -/

variable (W : Valuation τ sig (Elt Ideal))

/-- The input flattened to [4096, 1024]. -/
theorem stretch0_v10 (r : Fin 4096) (k : Fin 1024) :
    StableHlo.after hostOps0 W (Proc.devRef .tc main_v10) (ix2 r k)
      = W (Proc.devRef .tc main_arg0)
          (ix3 (⟨r.val / 2048, by omega⟩ : Fin 2) (⟨r.val % 2048, Nat.mod_lt _ (by norm_num)⟩ : Fin 2048) k) := by
  have e : (StableHlo.after hostOps0 W (Proc.devRef .tc main_v10) : S4096x1024.Idx → EReal)
      = shapeCast S4096x1024 (W (Proc.devRef .tc main_arg0) : S2x2048x1024.Idx → EReal)
          Facts₀.shapeCasts_S2x2048x1024_S4096x1024 := by
    after_results; rfl
  exact (congrFun e _).trans (cast_flatten _ _ r k)

/-- Row n of the permuted fused weight is row perm n of the fused weight. -/
theorem stretch0_v4 (n : Fin 3072) (k : Fin 1024) :
    StableHlo.after hostOps0 W (Proc.devRef .tc main_v4) (ix2 n k)
      = W (Proc.devRef .tc main_arg1) (ix2 (Cert.Attn.perm n) k) := by
  have e : (StableHlo.after hostOps0 W (Proc.devRef .tc main_v4) : S3072x1024.Idx → EReal)
      = Host.gather gather_S3072x1024_S3072x1_S3072x1024_1_0_n_n_0_1_11024
          (W (Proc.devRef .tc main_arg1) : S3072x1024.Idx → EReal) idxCol := by
    after_results; rfl
  refine (congrFun e _).trans ?_
  refine (Cert.LibSegSum.rowGather_apply (by norm_num)
    Facts₀.gather_S3072x1024_S3072x1_S3072x1024_1_0_n_n_0_1_11024_wf _ idxCol n k).trans ?_
  exact congrArg (fun r => (W (Proc.devRef .tc main_arg1) : S3072x1024.Idx → EReal) (ix2 r k))
    (Fin.ext (idxCol_row n))

/-- Entry n of the permuted fused bias, as a one-row matrix, is entry perm n of the fused bias. -/
theorem stretch0_v11 (n : Fin 3072) :
    StableHlo.after hostOps0 W (Proc.devRef .tc main_v11) (ix2 (0 : Fin 1) n)
      = W (Proc.devRef .tc main_arg2) (ix1 (Cert.Attn.perm n)) := by
  have e : (StableHlo.after hostOps0 W (Proc.devRef .tc main_v11) : S1x3072.Idx → EReal)
      = shapeCast S1x3072
          (Host.gather gather_S3072_S3072x1_S3072_n_0_n_n_0_1_1
            (W (Proc.devRef .tc main_arg2) : S3072.Idx → EReal) idxCol)
          Facts₀.shapeCasts_S3072_S1x3072 := by
    after_results; rfl
  refine (congrFun e _).trans ((shapeCast_a_1a_apply _ _ (0 : Fin 1) n).trans ?_)
  refine (vecGather_apply (by norm_num) Facts₀.gather_S3072_S3072x1_S3072_n_0_n_n_0_1_1_wf _ idxCol n).trans ?_
  exact congrArg (fun r => (W (Proc.devRef .tc main_arg2) : S3072.Idx → EReal) (ix1 r)) (Fin.ext (idxCol_row n))

end Cert.KernelIdeal.HostValue

end
-- ==== Proof.HostStretch.lean ====
/-
  The three short stretches of host operations between the kernel's regions, read at an index. Each is a reshape
  between a [2, 2048, C] array and its [4096, C] flattening (row r = b · 2048 + s), or a vector given a leading unit
  axis; a reshape keeps the row-major position of every element.
-/
import proofs.«169975_j65893388255704_2_alg».proof.Proof.Gen.KernelIdeal.Launch
import proofs.«169975_j65893388255704_2_alg».proof.Proof.HostReshape
import proofs.«169975_j65893388255704_2_alg».proof.Proof.HostStretch0
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx

/-! ## The stretches -/

variable (W : Valuation τ sig (Elt Ideal))

/-- After the first region: the fused projection's [4096, 3072] result seen as [2, 2048, 3072]. -/
theorem stretch1_v13 (bb : Fin 2) (s : Fin 2048) (n : Fin 3072) :
    StableHlo.after hostOps1 W (Proc.devRef .tc main_v13) (ix3 bb s n)
      = W (Proc.devRef .tc main_v12) (ix2 (⟨bb.val * 2048 + s.val, by omega⟩ : Fin 4096) n) := by
  have e : (StableHlo.after hostOps1 W (Proc.devRef .tc main_v13) : S2x2048x3072.Idx → EReal)
      = shapeCast S2x2048x3072 (W (Proc.devRef .tc main_v12) : S4096x3072.Idx → EReal)
          Facts₀.shapeCasts_S4096x3072_S2x2048x3072 := by
    after_results; rfl
  exact (congrFun e _).trans (cast_split _ _ bb s n)

/-- After the second region: the attention output's [2, 2048, 1024] array flattened to [4096, 1024]. -/
theorem stretch2_v15 (r : Fin 4096) (k : Fin 1024) :
    StableHlo.after hostOps2 W (Proc.devRef .tc main_v15) (ix2 r k)
      = W (Proc.devRef .tc main_v14)
          (ix3 (⟨r.val / 2048, by omega⟩ : Fin 2) (⟨r.val % 2048, Nat.mod_lt _ (by norm_num)⟩ : Fin 2048) k) := by
  have e : (StableHlo.after hostOps2 W (Proc.devRef .tc main_v15) : S4096x1024.Idx → EReal)
      = shapeCast S4096x1024 (W (Proc.devRef .tc main_v14) : S2x2048x1024.Idx → EReal)
          Facts₀.shapeCasts_S2x2048x1024_S4096x1024 := by
    after_results; rfl
  exact (congrFun e _).trans (cast_flatten _ _ r k)

/-- The output bias as a one-row matrix. -/
theorem stretch2_v16 (e : Fin 1024) :
    StableHlo.after hostOps2 W (Proc.devRef .tc main_v16) (ix2 (0 : Fin 1) e)
      = W (Proc.devRef .tc main_arg4) (ix1 e) := by
  have h : (StableHlo.after hostOps2 W (Proc.devRef .tc main_v16) : S1x1024.Idx → EReal)
      = shapeCast S1x1024 (W (Proc.devRef .tc main_arg4) : S1024.Idx → EReal) Facts₀.shapeCasts_S1024_S1x1024 := by
    after_results; rfl
  exact (congrFun h _).trans (shapeCast_a_1a_apply _ _ (0 : Fin 1) e)

/-- The output weight is not touched by the stretch. -/
theorem stretch2_arg3 :
    StableHlo.after hostOps2 W (Proc.devRef .tc main_arg3) = W (Proc.devRef .tc main_arg3) := by
  after_results

/-- After the third region: the output projection's [4096, 1024] result seen as [2, 2048, 1024]. -/
theorem stretch3_v18 (bb : Fin 2) (s : Fin 2048) (e : Fin 1024) :
    StableHlo.after hostOps3 W (Proc.devRef .tc main_v18) (ix3 bb s e)
      = W (Proc.devRef .tc main_v17) (ix2 (⟨bb.val * 2048 + s.val, by omega⟩ : Fin 4096) e) := by
  have h : (StableHlo.after hostOps3 W (Proc.devRef .tc main_v18) : S2x2048x1024.Idx → EReal)
      = shapeCast S2x2048x1024 (W (Proc.devRef .tc main_v17) : S4096x1024.Idx → EReal)
          Facts₀.shapeCasts_S4096x1024_S2x2048x1024 := by
    after_results; rfl
  exact (congrFun h _).trans (cast_split _ _ bb s e)

end Cert.KernelIdeal.HostValue

end
-- ==== Proof.ValueAll.lean ====
/-
  The idealized kernel's result is the specification: the last reshape reads the output projection's array, whose entry
  (row r, channel e) is the affine form of row r of the attention output against row e of the output weight; an entry of
  the attention output is one head's softmax-weighted sum over the fused projection's array read through the second
  reshape; and an entry of the fused projection's array is the affine form of a row of the input against the permuted
  weight row and bias entry — the permutation that lays the channels out part by part being undone by the way the
  attention region picks its lanes. Index by index this is `Cert.Attn.G` of the five argument arrays.
-/
import proofs.«169975_j65893388255704_2_alg».proof.Proof.FrameIRun
import proofs.«169975_j65893388255704_2_alg».proof.Proof.ValueReg0
import proofs.«169975_j65893388255704_2_alg».proof.Proof.ValueReg1
import proofs.«169975_j65893388255704_2_alg».proof.Proof.ValueReg2
import proofs.«169975_j65893388255704_2_alg».proof.Proof.HostStretch
import proofs.«169975_j65893388255704_2_alg».proof.Proof.Spec

noncomputable section

namespace Cert.KernelIdeal.Fr

open Cert.KernelIdeal Cert.KernelIdeal.Gen Cert.KernelIdeal.HostValue
open Idealize.ShloMosaic Idealize.ShloMosaic.TcCoe Idealize.ShloMosaic.ValueIdx Idealize.SL.Sem

variable (m : (ℓ : Loc nD τ sig) → Buf (Elt Ideal) ℓ)

/-- The rows of a [4096, ·] array are the (batch entry, position) pairs in row-major order. -/
theorem row_div (bb : Fin 2) (s : Fin 2048) : (bb.val * 2048 + s.val) / 2048 = bb.val := by
  have := s.isLt; omega
theorem row_mod (bb : Fin 2) (s : Fin 2048) : (bb.val * 2048 + s.val) % 2048 = s.val := by
  have := s.isLt; omega

/-- Row `bb · 2048 + s` of a [4096, ·] array. -/
abbrev row (bb : Fin 2) (s : Fin 2048) : Fin 4096 := ⟨bb.val * 2048 + s.val, by have := s.isLt; have := bb.isLt; omega⟩

theorem ix3_congr {α : Type} {n : Nat} (f : (⟨3, ![2, 2048, n]⟩ : Shape).Idx → α) {a a' : Fin 2} {b b' : Fin 2048} (k : Fin n)
    (ha : a = a') (hb : b = b') : f (ix3 a b k) = f (ix3 a' b' k) := by subst ha hb; rfl

/-! ## The first host stretch: the input flattened, the weight rows and the bias permuted -/

theorem v10_at (c : Dev nD) (bb : Fin 2) (j : Fin 2048) (k : Fin 1024) :
    V1 m c main_v10 (ix2 (row bb j) k) = m ((c : Thread nD τ).loc main_arg0) (ix3 bb j k) :=
  (stretch0_v10 (W0 m c) (row bb j) k).trans
    (ix3_congr (m ((c : Thread nD τ).loc main_arg0)) k (Fin.ext (row_div bb j)) (Fin.ext (row_mod bb j)))

theorem v4_at (c : Dev nD) (n : Fin 3072) (k : Fin 1024) :
    V1 m c main_v4 (ix2 n k) = m ((c : Thread nD τ).loc main_arg1) (ix2 (Cert.Attn.perm n) k) :=
  stretch0_v4 (W0 m c) n k

theorem v11_at (c : Dev nD) (n : Fin 3072) :
    V1 m c main_v11 (ix2 (0 : Fin 1) n) = m ((c : Thread nD τ).loc main_arg2) (ix1 (Cert.Attn.perm n)) :=
  stretch0_v11 (W0 m c) n

/-- The fused projection's array as region 0 leaves it: entry (row (bb, j), n) is the projection's channel `perm n`. -/
theorem v12_at (c : Dev nD) (bb : Fin 2) (j : Fin 2048) (n : Fin 3072) :
    W2 m c (Proc.devRef .tc main_v12) (ix2 (row bb j) n)
      = Cert.Attn.qkv (m ((c : Thread nD τ).loc main_arg0)) (m ((c : Thread nD τ).loc main_arg1)) (m ((c : Thread nD τ).loc main_arg2)) bb j (Cert.Attn.perm n) := by
  have h2 : W2 m c (Proc.devRef .tc main_v12) = (dat0 (V1 m) c).arrAt 3 cfg0.N := W2_arr m c 3
  rw [h2, final0]
  unfold Cert.Attn.qkv Cert.Attn.affine
  rw [v11_at]
  refine congrArg (· + _) (Finset.sum_congr rfl fun k _ => ?_)
  beta_reduce
  rw [v10_at, v4_at]

/-- The same array as region 1 finds it, after the second reshape. -/
theorem v13_at (c : Dev nD) (bb : Fin 2) (j : Fin 2048) (n : Fin 3072) :
    V3 m c main_v13 (ix3 bb j n)
      = Cert.Attn.qkv (m ((c : Thread nD τ).loc main_arg0)) (m ((c : Thread nD τ).loc main_arg1)) (m ((c : Thread nD τ).loc main_arg2)) bb j (Cert.Attn.perm n) :=
  (stretch1_v13 (W2 m c) bb j n).trans (v12_at m c bb j n)

/-- The attention output as region 1 leaves it: entry (bb, s, cc) is the heads' outputs side by side. -/
theorem v14_at (c : Dev nD) (bb : Fin 2) (s : Fin 2048) (cc : Fin 1024) :
    W4 m c (Proc.devRef .tc main_v14) (ix3 bb s cc)
      = Cert.Attn.vals (m ((c : Thread nD τ).loc main_arg0)) (m ((c : Thread nD τ).loc main_arg1)) (m ((c : Thread nD τ).loc main_arg2)) bb s cc := by
  rw [W4_out, final1]
  unfold Cert.Attn.vals Cert.Attn.head
  congr 1
  · funext d'; rw [v13_at, Cert.Attn.perm_pcol]
  · funext j d'; rw [v13_at, Cert.Attn.perm_pcol]
  · funext j; rw [v13_at, Cert.Attn.perm_pcol]

/-- Neither the first two regions nor the host operations around them write the output weight or the output bias. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem v15_at (c : Dev nD) (bb : Fin 2) (s : Fin 2048) (k : Fin 1024) :
    V5 m c main_v15 (ix2 (row bb s) k)
      = Cert.Attn.vals (m ((c : Thread nD τ).loc main_arg0)) (m ((c : Thread nD τ).loc main_arg1)) (m ((c : Thread nD τ).loc main_arg2)) bb s k :=
  ((stretch2_v15 (W4 m c) (row bb s) k).trans
    (ix3_congr (W4 m c (Proc.devRef .tc main_v14)) k (Fin.ext (row_div bb s)) (Fin.ext (row_mod bb s)))).trans (v14_at m c bb s k)

theorem v16_at (c : Dev nD) (e : Fin 1024) :
    V5 m c main_v16 (ix2 (0 : Fin 1) e) = m ((c : Thread nD τ).loc main_arg4) (ix1 e) :=
  (stretch2_v16 (W4 m c) e).trans (congrFun (W4_main_arg4 m c) _)

theorem w5_arg3 (c : Dev nD) : V5 m c main_arg3 = m ((c : Thread nD τ).loc main_arg3) :=
  (stretch2_arg3 (W4 m c)).trans (W4_main_arg3 m c)

/-- The output projection's array: entry (row (bb, s), e) is the result at batch entry bb, position s, channel e. -/
theorem v17_at (c : Dev nD) (bb : Fin 2) (s : Fin 2048) (e : Fin 1024) :
    W6 m c (Proc.devRef .tc main_v17) (ix2 (row bb s) e)
      = Cert.Attn.out (m ((c : Thread nD τ).loc main_arg0)) (m ((c : Thread nD τ).loc main_arg1)) (m ((c : Thread nD τ).loc main_arg2))
          (m ((c : Thread nD τ).loc main_arg3)) (m ((c : Thread nD τ).loc main_arg4)) bb s e := by
  have h6 : W6 m c (Proc.devRef .tc main_v17) = (dat2 (V5 m) c).arrAt 3 cfg2.N := W6_arr m c 3
  rw [h6, final2]
  unfold Cert.Attn.out Cert.Attn.affine
  rw [v16_at, w5_arg3]
  refine congrArg (· + _) (Finset.sum_congr rfl fun k _ => ?_)
  beta_reduce
  rw [v15_at]

/-- THE KERNEL'S VALUE: the result buffer after the run is the specification of the argument arrays. -/
theorem result_eq (c : Dev nD) :
    W7 m c (Proc.devRef .tc main_v18)
      = Cert.Attn.G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨bb, s, e, rfl⟩ : ∃ (bb : Fin 2) (s : Fin 2048) (e : Fin 1024), i = ix3 bb s e := ⟨i 0, i 1, i 2, eq_ix3 i⟩
  exact ((stretch3_v18 (W6 m c) bb s e).trans (v17_at m c bb s e))

end Cert.KernelIdeal.Fr

end
-- ==== Proof.RefValue1.lean ====
/-
  The two scalar facts the reference's stages need, stated once so that the bit patterns are opened in one module only:
  the reciprocal of the square root of 64 is the scale one eighth, and a maximum taken against -∞ changes nothing.
-/
import proofs.«169975_j65893388255704_2_alg».proof.Proof.Spec

noncomputable section

namespace Cert.ReferenceIdeal.RefValue

open Idealize.ShloMosaic

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `0.125` denotes the real 1/8. -/
theorem ofBits_eighth : Ideal.ofBits .f32 0x3E000000#32 = (((8 : ℝ)⁻¹ : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num, Real.sqrt_sq (by norm_num)]

/-- One over the square root of sixty-four is the scale of the scores. -/
theorem scale_eq :
    Ideal.div (Ideal.ofBits .f32 0x3F800000#32) (Ideal.sqrt (Ideal.ofBits .f32 0x42800000#32)) = Cert.Attn.scale := by
  rw [ofBits_one, ofBits_64]
  unfold Cert.Attn.scale
  rw [ofBits_eighth]
  have hs : Ideal.sqrt ((64 : ℝ) : EReal) = ((8 : ℝ) : EReal) := by
    show (if (64 : ℝ) < 0 then (⊥ : EReal) else ((Real.sqrt 64 : ℝ) : EReal)) = _
    rw [if_neg (by norm_num), sqrt_64]
  rw [hs]
  unfold Ideal.div
  rw [if_neg (by exact_mod_cast (by norm_num : (8 : ℝ) ≠ 0)), ← EReal.coe_inv, ← EReal.coe_mul, one_mul]

end Cert.ReferenceIdeal.RefValue

end
-- ==== Proof.RefValue2.lean ====
/-
  The reference's first stages read at an index: the fused projection is the sum the specification names, and the three
  slices taken after the reshape to heads and the exchange of the row and head axes are its query, key and value
  columns of each head.
-/
import proofs.«169975_j65893388255704_2_alg».proof.Proof.Gen.ReferenceIdeal.Read
import proofs.«169975_j65893388255704_2_alg».proof.Proof.Spec

noncomputable section

namespace Cert.ReferenceIdeal.RefValue

open Cert.ReferenceIdeal Cert.ReferenceIdeal.Read Idealize.ShloMosaic Idealize.ShloMosaic.ValueIdx
open scoped BigOperators

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The product against the transposed weight plus the broadcast bias, at row `(bb, s)` and channel `e`, is the
    contraction over the 1024 input channels plus the bias of channel `e`. -/
theorem v3_at (bb : Fin 2) (s : Fin 2048) (e : Fin 3072) :
    val_main_v3 (F := Ideal) x0 x1 x2 (ix3 bb s e) = Cert.Attn.qkv x0 x1 x2 bb s e := by
  rw [val_main_v3_apply, val_main_v0_apply, val_main_v2_apply, val_main_v1_apply]
  have e1 : ∀ k : Fin 1024, lidx_main_v0 (ix3 bb s e) k = ix3 bb s k := fun k => funext fun a => by
    match a with | ⟨0, _⟩ => rfl | ⟨1, _⟩ => rfl | ⟨2, _⟩ => rfl
  have e2 : ∀ k : Fin 1024, ridx_main_v0 (ix3 bb s e) k = ix2 e k := fun k => funext fun a => by
    match a with | ⟨0, _⟩ => rfl | ⟨1, _⟩ => rfl
  have e3 : idx_main_v1 (idx_main_v2 (ix3 bb s e)) = ix1 e := funext fun a => by
    match a with | ⟨0, _⟩ => rfl
  rw [e3]
  simp only [e1, e2]
  rfl

/-- After the reshape to sixteen heads of 192 channels and the exchange of the row and head axes, entry
    `(bb, h, s, c)` is channel `192 h + c` of row `(bb, s)` of the projection. -/
theorem v5_at (bb : Fin 2) (h : Fin 16) (s : Fin 2048) (c : Fin 192) :
    val_main_v5 (F := Ideal) x0 x1 x2 (ix4 bb h s c) = Cert.Attn.qkv x0 x1 x2 bb s ⟨h.val * 192 + c.val, by omega⟩ := by
  rw [val_main_v5_apply, val_main_v4_apply]
  refine (congrArg (val_main_v3 (F := Ideal) x0 x1 x2) ?_).trans (v3_at x0 x1 x2 bb s _)
  funext a
  have hb := bb.isLt; have hh := h.isLt; have hs := s.isLt; have hc := c.isLt
  match a with
  | ⟨0, _⟩ => exact Fin.ext (by show (((bb.val * 2048 + s.val) * 16 + h.val) * 192 + c.val) / 6291456 = bb.val; omega)
  | ⟨1, _⟩ => exact Fin.ext (by show (((bb.val * 2048 + s.val) * 16 + h.val) * 192 + c.val) / 3072 % 2048 = s.val; omega)
  | ⟨2, _⟩ => exact Fin.ext (by show (((bb.val * 2048 + s.val) * 16 + h.val) * 192 + c.val) % 3072 = h.val * 192 + c.val; omega)

/-- The first slice holds each head's query channels. -/
theorem v6_at (bb : Fin 2) (h : Fin 16) (i : Fin 2048) (d : Fin 64) :
    val_main_v6 (F := Ideal) x0 x1 x2 (ix4 bb h i d) = Cert.Attn.qkv x0 x1 x2 bb i (Cert.Attn.col h 0 d) := by
  rw [val_main_v6_apply]
  refine (congrArg (val_main_v5 (F := Ideal) x0 x1 x2) (?_ : _ = ix4 bb h i (⟨d.val, by omega⟩ : Fin 192))).trans
    ((v5_at x0 x1 x2 bb h i _).trans (congrArg (Cert.Attn.qkv x0 x1 x2 bb i) (Fin.ext ?_)))
  · funext a; match a with | ⟨0, _⟩ => rfl | ⟨1, _⟩ => rfl | ⟨2, _⟩ => rfl | ⟨3, _⟩ => rfl
  · show h.val * 192 + d.val = h.val * 192 + 0 * 64 + d.val; omega

/-- The second slice holds each head's key channels. -/
theorem v7_at (bb : Fin 2) (h : Fin 16) (j : Fin 2048) (d : Fin 64) :
    val_main_v7 (F := Ideal) x0 x1 x2 (ix4 bb h j d) = Cert.Attn.qkv x0 x1 x2 bb j (Cert.Attn.col h 1 d) := by
  rw [val_main_v7_apply]
  refine (congrArg (val_main_v5 (F := Ideal) x0 x1 x2) (?_ : _ = ix4 bb h j (⟨64 + d.val, by omega⟩ : Fin 192))).trans
    ((v5_at x0 x1 x2 bb h j _).trans (congrArg (Cert.Attn.qkv x0 x1 x2 bb j) (Fin.ext ?_)))
  · funext a; match a with | ⟨0, _⟩ => rfl | ⟨1, _⟩ => rfl | ⟨2, _⟩ => rfl | ⟨3, _⟩ => rfl
  · show h.val * 192 + (64 + d.val) = h.val * 192 + 1 * 64 + d.val; omega

/-- The third slice holds each head's value channels. -/
theorem v8_at (bb : Fin 2) (h : Fin 16) (j : Fin 2048) (d : Fin 64) :
    val_main_v8 (F := Ideal) x0 x1 x2 (ix4 bb h j d) = Cert.Attn.qkv x0 x1 x2 bb j (Cert.Attn.col h 2 d) := by
  rw [val_main_v8_apply]
  refine (congrArg (val_main_v5 (F := Ideal) x0 x1 x2) (?_ : _ = ix4 bb h j (⟨128 + d.val, by omega⟩ : Fin 192))).trans
    ((v5_at x0 x1 x2 bb h j _).trans (congrArg (Cert.Attn.qkv x0 x1 x2 bb j) (Fin.ext ?_)))
  · funext a; match a with | ⟨0, _⟩ => rfl | ⟨1, _⟩ => rfl | ⟨2, _⟩ => rfl | ⟨3, _⟩ => rfl
  · show h.val * 192 + (128 + d.val) = h.val * 192 + 2 * 64 + d.val; omega

end Cert.ReferenceIdeal.RefValue

end
-- ==== Proof.RefValue3.lean ====
/-
  The scores of the reference and their row maxima: the scalar one over the square root of 64 is the scale, the batched
  product of the query and key slices times that scalar is the scaled score, and the maximum taken over the last axis
  from -∞ (and once more against -∞) is the fold of `max` over the row.
-/
import proofs.«169975_j65893388255704_2_alg».proof.Proof.RefValue1
import proofs.«169975_j65893388255704_2_alg».proof.Proof.RefValue2

noncomputable section

namespace Cert.ReferenceIdeal.RefValue

open Cert.ReferenceIdeal Cert.ReferenceIdeal.Read Idealize.ShloMosaic Idealize.ShloMosaic.ValueIdx
open scoped BigOperators

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The row of scaled scores of query row `i` of head `h` against every key row. -/
def sRow (bb : Fin 2) (h : Fin 16) (i : Fin 2048) : Fin 2048 → EReal :=
  Cert.Attn.score (fun d' => Cert.Attn.qkv x0 x1 x2 bb i (Cert.Attn.col h 0 d'))
    (fun j d' => Cert.Attn.qkv x0 x1 x2 bb j (Cert.Attn.col h 1 d'))

/-- The broadcast scalar is the scale everywhere. -/
theorem v12_at (i : S2x16x2048x2048.Idx) : val_main_v12 (F := Ideal) i = Cert.Attn.scale := by
  rw [val_main_v12_apply, val_main_v10_apply, val_main_v9_apply, val_main_cst_apply, val_main_cst_0_apply]
  exact scale_eq

/-- The batched product of queries and keys, scaled, is the scaled score. -/
theorem v13_at (bb : Fin 2) (h : Fin 16) (i j : Fin 2048) :
    val_main_v13 (F := Ideal) x0 x1 x2 (ix4 bb h i j) = sRow x0 x1 x2 bb h i j := by
  rw [val_main_v13_apply, val_main_v11_apply, v12_at]
  have el : ∀ k : Fin 64, lidx_main_v11 (ix4 bb h i j) k = ix4 bb h i k := fun k => funext fun a => by
    match a with | ⟨0, _⟩ => rfl | ⟨1, _⟩ => rfl | ⟨2, _⟩ => rfl | ⟨3, _⟩ => rfl
  have er : ∀ k : Fin 64, ridx_main_v11 (ix4 bb h i j) k = ix4 bb h j k := fun k => funext fun a => by
    match a with | ⟨0, _⟩ => rfl | ⟨1, _⟩ => rfl | ⟨2, _⟩ => rfl | ⟨3, _⟩ => rfl
  simp only [el, er, v6_at, v7_at]
  rfl

/-- The maximum over the last axis, folded from -∞, is the row maximum of the scores. -/
theorem v14_at (bb : Fin 2) (h : Fin 16) (i : Fin 2048) :
    val_main_v14 (F := Ideal) x0 x1 x2 (ix3 bb h i) = Cert.Attn.rowMax (sRow x0 x1 x2 bb h i) := by
  unfold val_main_v14
  have hr : S2x16x2048x2048.Reduces [3] S2x16x2048 := by decide
  rw [Host.reduce_eq_fold_single FloatOps.maximumf _ _ Gen.reducesTo_S2x16x2048x2048_S2x16x2048_d3 hr Gen.h_S_]
  have hf : (val_main_v13 (F := Ideal) x0 x1 x2 ∘ hr.lift (ix3 bb h i)) = sRow x0 x1 x2 bb h i := funext fun k => by
    show val_main_v13 (F := Ideal) x0 x1 x2 (hr.lift (ix3 bb h i) k) = _
    refine (congrArg (val_main_v13 (F := Ideal) x0 x1 x2) ?_).trans (v13_at x0 x1 x2 bb h i k)
    funext a
    apply Fin.ext
    match a with | ⟨0, _⟩ => rfl | ⟨1, _⟩ => rfl | ⟨2, _⟩ => rfl | ⟨3, _⟩ => rfl
  exact congrArg (fun f => Finset.fold max Cert.Attn.negInf f (Finset.univ : Finset (Fin 2048))) hf

/-- Taking the maximum with -∞ once more changes nothing: the stage the rows are shifted by is the row maximum. -/
theorem v16_at (bb : Fin 2) (h : Fin 16) (i : Fin 2048) :
    val_main_v16 (F := Ideal) x0 x1 x2 (ix3 bb h i) = Cert.Attn.rowMax (sRow x0 x1 x2 bb h i) := by
  rw [val_main_v16_apply, val_main_v15_apply, val_main_cst_2_apply, v14_at]
  show max Cert.Attn.negInf (Cert.Attn.rowMax (sRow x0 x1 x2 bb h i)) = _
  refine max_eq_right ?_
  unfold Cert.Attn.rowMax
  exact (Finset.le_fold_max _).2 (Or.inl le_rfl)

end Cert.ReferenceIdeal.RefValue

end
-- ==== Proof.RefValue4.lean ====
/-
  The softmax and the two last products of the reference: the shifted scores' exponentials divided by their row sums are
  the softmax weights, the batched product with the value slice is each head's output, the exchange of axes and the
  reshape lay the heads side by side, and the output projection plus its bias is the specification's result.
-/
import proofs.«169975_j65893388255704_2_alg».proof.Proof.RefValue3

noncomputable section

namespace Cert.ReferenceIdeal.RefValue

open Cert.ReferenceIdeal Cert.ReferenceIdeal.Read Idealize.ShloMosaic Idealize.ShloMosaic.ValueIdx
open scoped BigOperators

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The exponential of a score shifted by its row's maximum. -/
theorem v20_at (bb : Fin 2) (h : Fin 16) (i j : Fin 2048) :
    val_main_v20 (F := Ideal) x0 x1 x2 (ix4 bb h i j)
      = Ideal.exp (sRow x0 x1 x2 bb h i j - Cert.Attn.rowMax (sRow x0 x1 x2 bb h i)) := by
  rw [val_main_v20_apply, val_main_v19_apply, val_main_v18_apply, val_main_v17_apply, v13_at]
  have e : idx_main_v17 (idx_main_v18 (ix4 bb h i j)) = ix3 bb h i := funext fun a => by
    match a with | ⟨0, _⟩ => rfl | ⟨1, _⟩ => rfl | ⟨2, _⟩ => rfl
  rw [e, v16_at]
  rfl

/-- The sum over a row of those exponentials (the sum starts from zero). -/
theorem v21_at (bb : Fin 2) (h : Fin 16) (i : Fin 2048) :
    val_main_v21 (F := Ideal) x0 x1 x2 (ix3 bb h i)
      = ∑ j : Fin 2048, Ideal.exp (sRow x0 x1 x2 bb h i j - Cert.Attn.rowMax (sRow x0 x1 x2 bb h i)) := by
  rw [val_main_v21_apply, val_main_cst_3_apply]
  have e : ∀ k : Fin 2048, idx_main_v21 (ix3 bb h i) k = ix4 bb h i k := fun k => funext fun a => by
    match a with | ⟨0, _⟩ => rfl | ⟨1, _⟩ => rfl | ⟨2, _⟩ => rfl | ⟨3, _⟩ => rfl
  simp only [e, v20_at]
  show Ideal.ofBits .f32 0x00000000#32 + _ = _
  rw [Ideal.ofBits_zero_f32, zero_add]

/-- The quotient is the softmax weight. -/
theorem v24_at (bb : Fin 2) (h : Fin 16) (i j : Fin 2048) :
    val_main_v24 (F := Ideal) x0 x1 x2 (ix4 bb h i j) = Cert.Attn.weight (sRow x0 x1 x2 bb h i) j := by
  rw [val_main_v24_apply, val_main_v23_apply, val_main_v22_apply, v20_at]
  have e : idx_main_v22 (idx_main_v23 (ix4 bb h i j)) = ix3 bb h i := funext fun a => by
    match a with | ⟨0, _⟩ => rfl | ⟨1, _⟩ => rfl | ⟨2, _⟩ => rfl
  rw [e, v21_at]
  rfl

/-- The batched product of the weights with the value slice is the head's output. -/
theorem v25_at (bb : Fin 2) (h : Fin 16) (i : Fin 2048) (d : Fin 64) :
    val_main_v25 (F := Ideal) x0 x1 x2 (ix4 bb h i d) = Cert.Attn.head x0 x1 x2 bb h i d := by
  rw [val_main_v25_apply]
  have el : ∀ k : Fin 2048, lidx_main_v25 (ix4 bb h i d) k = ix4 bb h i k := fun k => funext fun a => by
    match a with | ⟨0, _⟩ => rfl | ⟨1, _⟩ => rfl | ⟨2, _⟩ => rfl | ⟨3, _⟩ => rfl
  have er : ∀ k : Fin 2048, ridx_main_v25 (ix4 bb h i d) k = ix4 bb h k d := fun k => funext fun a => by
    match a with | ⟨0, _⟩ => rfl | ⟨1, _⟩ => rfl | ⟨2, _⟩ => rfl | ⟨3, _⟩ => rfl
  simp only [el, er, v24_at, v8_at]
  rfl

/-- After the exchange of the head and row axes and the reshape, channel `c` of row `(bb, s)` is channel `c % 64` of
    head `c / 64`. -/
theorem v27_at (bb : Fin 2) (s : Fin 2048) (c : Fin 1024) :
    val_main_v27 (F := Ideal) x0 x1 x2 (ix3 bb s c) = Cert.Attn.vals x0 x1 x2 bb s c := by
  rw [val_main_v27_apply, val_main_v26_apply]
  unfold Cert.Attn.vals
  refine (congrArg (val_main_v25 (F := Ideal) x0 x1 x2) ?_).trans (v25_at x0 x1 x2 bb _ s _)
  funext a
  have hb := bb.isLt; have hs := s.isLt; have hc := c.isLt
  match a with
  | ⟨0, _⟩ => exact Fin.ext (by show ((bb.val * 2048 + s.val) * 1024 + c.val) / 2097152 = bb.val; omega)
  | ⟨1, _⟩ => exact Fin.ext (by show ((bb.val * 2048 + s.val) * 1024 + c.val) / 64 % 16 = c.val / 64; omega)
  | ⟨2, _⟩ => exact Fin.ext (by show ((bb.val * 2048 + s.val) * 1024 + c.val) / 1024 % 2048 = s.val; omega)
  | ⟨3, _⟩ => exact Fin.ext (by show ((bb.val * 2048 + s.val) * 1024 + c.val) % 64 = c.val % 64; omega)

/-- The output projection plus its bias. -/
theorem v31_at (x3 : (⟨S1024x1024, .f32⟩ : BufTy).Contents (Elt Ideal)) (x4 : (⟨S1024, .f32⟩ : BufTy).Contents (Elt Ideal))
    (bb : Fin 2) (s : Fin 2048) (e : Fin 1024) :
    val_main_v31 (F := Ideal) x0 x1 x2 x3 x4 (ix3 bb s e) = Cert.Attn.out x0 x1 x2 x3 x4 bb s e := by
  rw [val_main_v31_apply, val_main_v28_apply, val_main_v30_apply, val_main_v29_apply]
  have e1 : ∀ k : Fin 1024, lidx_main_v28 (ix3 bb s e) k = ix3 bb s k := fun k => funext fun a => by
    match a with | ⟨0, _⟩ => rfl | ⟨1, _⟩ => rfl | ⟨2, _⟩ => rfl
  have e2 : ∀ k : Fin 1024, ridx_main_v28 (ix3 bb s e) k = ix2 e k := fun k => funext fun a => by
    match a with | ⟨0, _⟩ => rfl | ⟨1, _⟩ => rfl
  have e3 : idx_main_v29 (idx_main_v30 (ix3 bb s e)) = ix1 e := funext fun a => by
    match a with | ⟨0, _⟩ => rfl
  rw [e3]
  simp only [e1, e2, v27_at]
  rfl

end Cert.ReferenceIdeal.RefValue

end
-- ==== Proof.RefValue.lean ====
/-
  The reference program computes the specification's function: its last stage, read at every index through the
  stages before it, is the output projection of the sixteen heads' softmax-weighted sums.
-/
import proofs.«169975_j65893388255704_2_alg».proof.Proof.Gen.ReferenceIdeal.Run
import proofs.«169975_j65893388255704_2_alg».proof.Proof.Gen.ReferenceIdeal.Read
import proofs.«169975_j65893388255704_2_alg».proof.Proof.Spec
import proofs.«169975_j65893388255704_2_alg».proof.Proof.RefValue4

noncomputable section

namespace Cert.ReferenceIdeal.RefValue

open Cert.ReferenceIdeal Cert.ReferenceIdeal.Read Idealize.ShloMosaic Idealize.ShloMosaic.ValueIdx

/-- The reference's result array is the specification's, entry by entry. -/
theorem result_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    Cert.ReferenceIdeal.Read.val_main_v31 (F := Ideal) x0 x1 x2 x3 x4 = Cert.Attn.G x0 x1 x2 x3 x4 := by
  funext i
  obtain ⟨bb, s, e, rfl⟩ : ∃ bb s e, i = ix3 bb s e := ⟨_, _, _, eq_ix3 i⟩
  exact (v31_at x0 x1 x2 x3 x4 bb s e).trans (Cert.Attn.G_apply x0 x1 x2 x3 x4 bb s e).symm

end Cert.ReferenceIdeal.RefValue

end
-- ==== Proof.lean ====
/-
  Multi-head self-attention computed by three kernel regions — a fused query/key/value projection whose weight rows
  are first permuted so that the channels come out grouped part by part, sixteen heads of softmax attention taken two
  heads (128 lanes) at a time, and the output projection — equals, at the ideal instance, the plain reference: the
  projection, a reshape and transpose to heads, the three 64-channel slices, scores scaled by 1/sqrt 64 = 1/8, a
  row-wise softmax, the weighted sums, and the output projection.

  Both sides are the SAME expression on the extended reals, entry by entry: `Cert.Attn.G` (Proof/Spec.lean). The
  kernel's side: each region's result array is what its grid points write back, block by block (Proof/ValueReg0..2
  over the payloads read at an index in Proof/PayProj, PaySoft, PayAttn), the host reshapes and the row gather by the
  constant permutation table are read at an index (Proof/HostStretch*), and the permuted layout is undone by the lanes
  the attention region reads (`Attn.perm_pcol`), Proof/ValueAll.lean. The reference's side: its thirty-seven host
  operations read one at a time (Proof/RefValue*). Only commutativity-free rewriting is needed: no sum is reordered
  across an infinity, so the finiteness precondition is never opened.

  The frames: each kernel program is run as four stretches of host operations around its three regions
  (Proof/FrameI*, FrameK*): every body runs at every grid point, the pipeline's write-backs are followed through the
  buffers, and the attention region's three input windows, which read ONE array, share it by fractions.
  The idealization rewrote nothing, so `preserves` is trivial.
-/
import proofs.«169975_j65893388255704_2_alg».proof.Defs
import proofs.«169975_j65893388255704_2_alg».proof.Proof.Gen.Kernel
import proofs.«169975_j65893388255704_2_alg».proof.Proof.Gen.KernelIdeal
import proofs.«169975_j65893388255704_2_alg».proof.Proof.Gen.ReferenceIdeal
import proofs.«169975_j65893388255704_2_alg».proof.Proof.Gen.Pre_finite_inputs
import proofs.«169975_j65893388255704_2_alg».proof.Proof.Gen.ReferenceIdeal.Run
import proofs.«169975_j65893388255704_2_alg».proof.Proof.Gen.ReferenceIdeal.Read
import proofs.«169975_j65893388255704_2_alg».proof.Proof.FrameKRun
import proofs.«169975_j65893388255704_2_alg».proof.Proof.FrameIRun
import proofs.«169975_j65893388255704_2_alg».proof.Proof.ValueAll
import proofs.«169975_j65893388255704_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Fr.frame m ρ

/-- The idealized kernel runs and leaves its arguments as launched. -/
theorem frame_kernelIdeal : Cert.frame_KernelIdeal := fun m ρ _ => Cert.KernelIdeal.Fr.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at `Attn.G` of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Fr.result_eq m c), (h c).2⟩) (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
